-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x3x8192 : Shape := ⟨3, ![4, 3, 8192]⟩
abbrev S_ : Shape := ⟨0, ![]⟩

class Facts : Prop where
  bcast_S_S4x3x8192 : S_.BroadcastsInDim S4x3x8192 (![] : Fin 0 → Fin S4x3x8192.rank)
  reducesTo_S4x3x8192_S_d0_1_2 : S4x3x8192.ReducesTo [0, 1, 2] S_
  h_S_ : 0 < S_.numel

variable [Facts]

def fn {F : FTy → Type} [FloatOps F] (main_arg0 : FVec F S4x3x8192 .f32) (main_arg1 : FVec F S4x3x8192 .f32) : IVec S_ 1 :=
  let main_v0 : FVec F S4x3x8192 .f32 := Host.absf main_arg0
  let main_cst : FVec F S_ .f32 := constant S_ .f32 0x7F800000#32
  let main_v1 : FVec F S4x3x8192 .f32 := broadcastInDim S4x3x8192 ![] bcast_S_S4x3x8192 main_cst
  let main_v2 : IVec S4x3x8192 1 := cmpf .olt main_v0 main_v1
  let main_c : IVec S_ 1 := constantI S_ 1 1#1
  let main_v3 : IVec S_ 1 := (fun x v => Host.reduce IntOp.andi x v reducesTo_S4x3x8192_S_d0_1_2 h_S_) main_v2 main_c
  let main_v4 : FVec F S4x3x8192 .f32 := Host.absf main_arg1
  let main_cst_0 : FVec F S_ .f32 := constant S_ .f32 0x7F800000#32
  let main_v5 : FVec F S4x3x8192 .f32 := broadcastInDim S4x3x8192 ![] bcast_S_S4x3x8192 main_cst_0
  let main_v6 : IVec S4x3x8192 1 := cmpf .olt main_v4 main_v5
  let main_c_1 : IVec S_ 1 := constantI S_ 1 1#1
  let main_v7 : IVec S_ 1 := (fun x v => Host.reduce IntOp.andi x v reducesTo_S4x3x8192_S_d0_1_2 h_S_) main_v6 main_c_1
  let main_v8 : IVec S_ 1 := andi main_v3 main_v7
  main_v8
-- ==== Kernel.lean ====
abbrev S4x3x8192 : Shape := ⟨3, ![4, 3, 8192]⟩
abbrev S4x8192 : Shape := ⟨2, ![4, 8192]⟩
abbrev S2x4x8192 : Shape := ⟨3, ![2, 4, 8192]⟩
abbrev S4x3x256 : Shape := ⟨3, ![4, 3, 256]⟩
abbrev S4x256 : Shape := ⟨2, ![4, 256]⟩
abbrev S1x4x8192 : Shape := ⟨3, ![1, 4, 8192]⟩
abbrev S4x1x256 : Shape := ⟨3, ![4, 1, 256]⟩
abbrev S4x256x1 : Shape := ⟨3, ![4, 256, 1]⟩
abbrev S4x3x2048 : Shape := ⟨3, ![4, 3, 2048]⟩
abbrev S4x2048 : Shape := ⟨2, ![4, 2048]⟩
abbrev S4x1x2048 : Shape := ⟨3, ![4, 1, 2048]⟩
abbrev S4x256x2048 : Shape := ⟨3, ![4, 256, 2048]⟩
abbrev S1x4x2048 : Shape := ⟨3, ![1, 4, 2048]⟩
abbrev S_ : Shape := ⟨0, ![]⟩

abbrev nBuf : Space → Nat
  | .hbm => 20
  | .vmem => 7
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192, .f32⟩
  | .hbm, ⟨3, _⟩ => ⟨S2x4x8192, .f32⟩
  | .hbm, ⟨4, _⟩ => ⟨S1x4x8192, .f32⟩
  | .hbm, ⟨5, _⟩ => ⟨S4x8192, .f32⟩
  | .hbm, ⟨6, _⟩ => ⟨S1x4x8192, .f32⟩
  | .hbm, ⟨7, _⟩ => ⟨S4x8192, .f32⟩
  | .hbm, ⟨8, _⟩ => ⟨S4x8192, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S4x3x256, .f32⟩
  | .local _ .vmem, ⟨1, _⟩ => ⟨S4x3x256, .f32⟩
  | .local _ .vmem, ⟨2, _⟩ => ⟨S4x3x8192, .f32⟩
  | .local _ .vmem, ⟨3, _⟩ => ⟨S4x256, .f32⟩
  | .local _ .vmem, ⟨4, _⟩ => ⟨S4x256, .f32⟩
  | .local _ .vmem, ⟨5, _⟩ => ⟨S1x4x8192, .f32⟩
  | .local _ .vmem, ⟨6, _⟩ => ⟨S1x4x8192, .f32⟩
  | _, _ => ⟨S4x3x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 16], ![false, false]⟩

def k0_mult1 : BitVec 32 :=
  let c0_i32_4 : BitVec 32 := 0#32
  let c2048_i32 : BitVec 32 := 2048#32
  let v9 : BitVec 32 := Scalar.muli c0_i32_4 c2048_i32
  v9
def k0_off1 (c0_i32_4 : BitVec 32) : Fin 3 → Nat :=
  let c0_5 : Index := 0#32
  let c0_6 : Index := 0#32
  let c2048_i32 : BitVec 32 := 2048#32
  let v9 : BitVec 32 := Scalar.muli c0_i32_4 c2048_i32
  let v10 : BitVec 32 := v9
  let v11 : Index := Scalar.indexCast v10
  ![0, 0, v11.toNat]
def k0_off2 (c0_i32_4 : BitVec 32) : Fin 3 → Nat :=
  let c0_13 : Index := 0#32
  let c0_14 : Index := 0#32
  let c2048_i32 : BitVec 32 := 2048#32
  let v9 : BitVec 32 := Scalar.muli c0_i32_4 c2048_i32
  let v10 : BitVec 32 := v9
  let v28 : Index := Scalar.indexCast v10
  ![0, 0, v28.toNat]
def k0_mult2 : BitVec 32 :=
  let c1_i32 : BitVec 32 := 1#32
  let c2048_i32_17 : BitVec 32 := 2048#32
  let v36 : BitVec 32 := Scalar.muli c1_i32 c2048_i32_17
  v36
def k0_mult3 : BitVec 32 :=
  let c2_i32 : BitVec 32 := 2#32
  let c2048_i32_30 : BitVec 32 := 2048#32
  let v63 : BitVec 32 := Scalar.muli c2_i32 c2048_i32_30
  v63
def k0_mult4 : BitVec 32 :=
  let c3_i32 : BitVec 32 := 3#32
  let c2048_i32_43 : BitVec 32 := 2048#32
  let v90 : BitVec 32 := Scalar.muli c3_i32 c2048_i32_43
  v90
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, c0_i32_0.toNat, v1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x3x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x3x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  inb_S4x3x256_S4x3x256_0_0_0 : ∀ a, (![0, 0, 0] : Fin 3 → Nat) a + S4x3x256.size a ≤ S4x3x256.size a
  h_S4x3x256 : 0 < S4x3x256.numel
  reduces_S4x3x256_S4x256 : S4x3x256.Reduces [1] S4x256
  shapeCasts_S4x256_S4x1x256 : S4x256.ShapeCasts S4x1x256
  transposes_S4x1x256_p0_2_1_S4x256x1 : S4x1x256.Transposes [0, 2, 1] S4x256x1
  inb_S1x4x8192_S1x4x8192_0_0_0 : ∀ a, (![0, 0, 0] : Fin 3 → Nat) a + S1x4x8192.size a ≤ S1x4x8192.size a
  h_S1x4x8192 : 0 < S1x4x8192.numel
  shapeCasts_S1x4x8192_S4x8192 : S1x4x8192.ShapeCasts S4x8192
  shapeCasts_S4x8192_S1x4x8192 : S4x8192.ShapeCasts S1x4x8192
  h_S4x3x2048 : 0 < S4x3x2048.numel
  reduces_S4x3x2048_S4x2048 : S4x3x2048.Reduces [1] S4x2048
  shapeCasts_S4x2048_S4x1x2048 : S4x2048.ShapeCasts S4x1x2048
  broadcasts_S4x256x1_S4x256x2048 : S4x256x1.Broadcasts S4x256x2048
  broadcasts_S4x1x2048_S4x256x2048 : S4x1x2048.Broadcasts S4x256x2048
  reduces_S4x256x2048_S4x256 : S4x256x2048.Reduces [2] S4x256
  reduces_S4x256x2048_S4x2048 : S4x256x2048.Reduces [1] S4x2048
  h_S1x4x2048 : 0 < S1x4x2048.numel
  shapeCasts_S1x4x2048_S4x2048 : S1x4x2048.ShapeCasts S4x2048
  shapeCasts_S4x2048_S1x4x2048 : S4x2048.ShapeCasts S1x4x2048
  inb_S4x256_S4x256_0_0 : ∀ a, (![0, 0] : Fin 2 → Nat) a + S4x256.size a ≤ S4x256.size a
  h_S4x256 : 0 < S4x256.numel
  slices_S2x4x8192_S1x4x8192_0_0_0 : S2x4x8192.Slices ![0, 0, 0] S1x4x8192
  slices_S2x4x8192_S1x4x8192_1_0_0 : S2x4x8192.Slices ![1, 0, 0] S1x4x8192
  reducesTo_S4x8192_S_d0_1 : S4x8192.ReducesTo [0, 1] S_
  h_S_ : 0 < S_.numel
  dot_S4x3x256_S4x3x2048_S4x256x2048_1_1_2_2_0_0_wf : DotDims.WF S4x3x256 S4x3x2048 S4x256x2048 [1] [1] [2] [2] [0] [0]
  hrank0 : 0 < grid0.rank
  k0_mult1_dvd : 2048 ∣ k0_mult1.toNat
  k0_off1_inb : ∀ (r : Fin 4), ∀ a, (k0_off1 (BitVec.ofNat 32 r.val)) a + S4x3x2048.size a ≤ S4x3x8192.size a
  k0_off2_inb : ∀ (r : Fin 4), ∀ a, (k0_off2 (BitVec.ofNat 32 r.val)) a + S1x4x2048.size a ≤ S1x4x8192.size a
  k0_mult2_dvd : 2048 ∣ k0_mult2.toNat
  k0_mult3_dvd : 2048 ∣ k0_mult3.toNat
  k0_mult4_dvd : 2048 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x3x256.size a ≤ S4x3x8192.size a
  hwx0_0 : ∀ i : grid0.Coords, EltTy.bits .f32 = 32 ∨ (Rect.block (s := S4x3x8192) S4x3x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x3x8192.size a ≤ S4x3x8192.size a
  hwx0_1 : ∀ i : grid0.Coords, EltTy.bits .f32 = 32 ∨ (Rect.block (s := S4x3x8192) S4x3x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x8192.size a
  hwx0_2 : ∀ i : grid0.Coords, EltTy.bits .f32 = 32 ∨ (Rect.block (s := S4x8192) S4x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x8192.size a ≤ S2x4x8192.size a
  hwx0_3 : ∀ i : grid0.Coords, EltTy.bits .f32 = 32 ∨ (Rect.block (s := S2x4x8192) S1x4x8192.size (cc0_transform_3 i) (hinb0_3 i)).WholeWords (EltTy.packing .f32)

variable [Facts₀]

def dot_S4x3x256_S4x3x2048_S4x256x2048_1_1_2_2_0_0 : DotDims S4x3x256 S4x3x2048 S4x256x2048 where
  lhsContracting := [1]
  rhsContracting := [1]
  lhsNonContracting := [2]
  rhsNonContracting := [2]
  lhsBatch := [0]
  rhsBatch := [0]
  wf := dot_S4x3x256_S4x3x2048_S4x256x2048_1_1_2_2_0_0_wf

abbrev win0_0 : Pipeline.Window sig grid0 :=
  Pipeline.Window.ofSpec (Memref.whole main_arg0) S4x3x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4x3x8192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4x8192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x3x8192 : Shape := ⟨3, ![4, 3, 8192]⟩
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩

abbrev nBuf : Space → Nat
  | .hbm => 38
  | .vmem => 0
  | .smem => 0
  | _ => 0

abbrev bufTy : (tb : Table) → Fin (tcTables nBuf tb) → BufTy
  | .hbm, ⟨0, _⟩ => ⟨S4x3x8192, .f32⟩
  | .hbm, ⟨1, _⟩ => ⟨S4x3x8192, .f32⟩
  | .hbm, ⟨2, _⟩ => ⟨S4x8192x3, .f32⟩
  | .hbm, ⟨3, _⟩ => ⟨S4x8192x3, .f32⟩
  | .hbm, ⟨4, _⟩ => ⟨S4x8192x3, .f32⟩
  | .hbm, ⟨5, _⟩ => ⟨S_, .f32⟩
  | .hbm, ⟨6, _⟩ => ⟨S4x8192, .f32⟩
  | .hbm, ⟨7, _⟩ => ⟨S4x8192x3, .f32⟩
  | .hbm, ⟨8, _⟩ => ⟨S_, .f32⟩
  | .hbm, ⟨9, _⟩ => ⟨S4x8192, .f32⟩
  | .hbm, ⟨10, _⟩ => ⟨S4x8192x8192, .f32⟩
  | .hbm, ⟨11, _⟩ => ⟨S4x8192x1, .f32⟩
  | .hbm, ⟨12, _⟩ => ⟨S4x1x8192, .f32⟩
  | .hbm, ⟨13, _⟩ => ⟨S4x8192x8192, .f32⟩
  | .hbm, ⟨14, _⟩ => ⟨S4x8192x8192, .f32⟩
  | .hbm, ⟨15, _⟩ => ⟨S4x8192x8192, .f32⟩
  | .hbm, ⟨16, _⟩ => ⟨S_, .f32⟩
  | .hbm, ⟨17, _⟩ => ⟨S4x8192x8192, .f32⟩
  | .hbm, ⟨18, _⟩ => ⟨S4x8192x8192, .f32⟩
  | .hbm, ⟨19, _⟩ => ⟨S4x8192x8192, .f32⟩
  | .hbm, ⟨20, _⟩ => ⟨S_, .f32⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S_, .f32⟩
  | .hbm, ⟨26, _⟩ => ⟨S4x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | _, _ => ⟨S4x3x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_cst_3 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_cst_5 : Ref sig .tc := ⟨.hbm, 27, rfl⟩
abbrev main_v19 : Ref sig .tc := ⟨.hbm, 28, rfl⟩
abbrev main_cst_6 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_cst_8 : Ref sig .tc := ⟨.hbm, 33, rfl⟩
abbrev main_v22 : Ref sig .tc := ⟨.hbm, 34, rfl⟩
abbrev main_cst_9 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]

class Facts₀ : Prop where
  transposes_S4x3x8192_S4x8192x3_0_2_1 : S4x3x8192.Transposes [0, 2, 1] S4x8192x3
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  reducesTo_S4x8192x8192_S4x8192_d1 : S4x8192x8192.ReducesTo [1] S4x8192
  reducesTo_S4x8192_S_d0_1 : S4x8192.ReducesTo [0, 1] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.Spec.lean ====
/-
  The mathematics of the Chamfer loss, with no program in sight.

  A point cloud is an array [4, 3, N]: batch b, coordinate c, point n.  For a point p of the first cloud and a point q
  of the second, both read as their three coordinates, the clamped squared distance is
      dist p q = max ((|p|² + |q|²) - 2 · (p · q)) 0
  with |p|² = Σ_c p_c², p · q = Σ_c p_c q_c, all over the extended reals.  The loss is the mean over the points of the
  first cloud of the least distance to the second, plus ten times the mean over the second cloud of the least distance
  to the first.

  Minima over a finite index set are carried by their universal property: z ≤ min_k f k exactly when z ≤ f k for every k.
  Two extended reals below which the same z lie are equal, so every regrouping of a minimum (by chunks of columns, by
  blocks of rows, by halves) is a statement about quantifiers over indices, proved by arithmetic on the indices.
-/
import Idealize.ShloMosaic.PureOps.Ideal.Laws
import Idealize.ShloMosaic.Lib.ValueIdx

noncomputable section

namespace Cert.Chamfer

open Idealize.ShloMosaic Idealize.ShloMosaic.ValueIdx

/-- The bit pattern of +∞ is the top of the extended reals. -/
theorem ofBits_inf : Ideal.ofBits .f32 0x7F800000#32 = (⊤ : EReal) := by
  simp [Ideal.ofBits, Ideal.ieee]

/-- The least of finitely many extended reals, folded from +∞. -/
def minOver {n : Nat} (f : Fin n → EReal) : EReal :=
  (Finset.univ : Finset (Fin n)).fold min (Ideal.ofBits .f32 0x7F800000#32) f

/-- Its universal property. -/
theorem le_minOver {n : Nat} (f : Fin n → EReal) (z : EReal) : z ≤ minOver f ↔ ∀ k, z ≤ f k := by
  unfold minOver
  rw [Finset.le_fold_min, ofBits_inf]
  simp

/-- Two extended reals with the same lower bounds are equal. -/
theorem eq_of_le_iff {a b : EReal} (h : ∀ z, z ≤ a ↔ z ≤ b) : a = b :=
  le_antisymm ((h a).mp le_rfl) ((h b).mpr le_rfl)

/-- The clamped squared distance of two points given by their three coordinates. -/
def dist (p q : Fin 3 → EReal) : EReal :=
  max (((∑ c, p c * p c) + (∑ c, q c * q c)) - Ideal.ofBits .f32 0x40000000#32 * (∑ c, p c * q c))
    (Ideal.ofBits .f32 0x00000000#32)

/-- Point `n` of batch `b` of a cloud, as its three coordinates. -/
def col {N : Nat} (x : (⟨3, ![4, 3, N]⟩ : Shape).Idx → EReal) (b : Fin 4) (n : Fin N) : Fin 3 → EReal :=
  fun c => x (ix3 b c n)

/-- For each point of the first cloud, its least distance to the second cloud. -/
def nearX (x y : (⟨3, ![4, 3, 8192]⟩ : Shape).Idx → EReal) : (⟨2, ![4, 8192]⟩ : Shape).Idx → EReal :=
  fun j => minOver fun m : Fin 8192 => dist (col x (j 0) (j 1)) (col y (j 0) m)

/-- For each point of the second cloud, its least distance to the first cloud. -/
def nearY (x y : (⟨3, ![4, 3, 8192]⟩ : Shape).Idx → EReal) : (⟨2, ![4, 8192]⟩ : Shape).Idx → EReal :=
  fun j => minOver fun n : Fin 8192 => dist (col x (j 0) n) (col y (j 0) (j 1))

/-- A property of every column 0 … 8191 is a property of the four chunks of 2048 columns. -/
theorem forall_chunks (P : Fin 8192 → Prop) :
    (∀ m, P m) ↔ ((∀ k : Fin 2048, P ⟨0 + k.val, by omega⟩) ∧ (∀ k : Fin 2048, P ⟨2048 + k.val, by omega⟩)
      ∧ (∀ k : Fin 2048, P ⟨4096 + k.val, by omega⟩) ∧ (∀ k : Fin 2048, P ⟨6144 + k.val, by omega⟩)) := by
  constructor
  · intro h; exact ⟨fun _ => h _, fun _ => h _, fun _ => h _, fun _ => h _⟩
  · rintro ⟨h0, h1, h2, h3⟩ m
    have hm := m.isLt
    by_cases c0 : m.val < 2048
    · have := h0 ⟨m.val, c0⟩; exact (show (⟨0 + m.val, _⟩ : Fin 8192) = m from Fin.ext (by simp)) ▸ this
    by_cases c1 : m.val < 4096
    · have := h1 ⟨m.val - 2048, by omega⟩
      exact (show (⟨2048 + (m.val - 2048), _⟩ : Fin 8192) = m from Fin.ext (by simp; omega)) ▸ this
    by_cases c2 : m.val < 6144
    · have := h2 ⟨m.val - 4096, by omega⟩
      exact (show (⟨4096 + (m.val - 4096), _⟩ : Fin 8192) = m from Fin.ext (by simp; omega)) ▸ this
    · have := h3 ⟨m.val - 6144, by omega⟩
      exact (show (⟨6144 + (m.val - 6144), _⟩ : Fin 8192) = m from Fin.ext (by simp; omega)) ▸ this

/-- A property of the B columns from column s on is a property of every column in [s, s + B). -/
theorem forall_offset (P : Fin 8192 → Prop) (B s : Nat) (h : s + B ≤ 8192) :
    (∀ r : Fin B, P ⟨s + r.val, by omega⟩) ↔ ∀ n : Fin 8192, s ≤ n.val → n.val < s + B → P n := by
  constructor
  · intro hP n h1 h2
    have := hP ⟨n.val - s, by omega⟩
    exact (show (⟨s + (n.val - s), _⟩ : Fin 8192) = n from Fin.ext (by simp; omega)) ▸ this
  · intro hP r
    exact hP _ (by simp) (by simp)

/-- A property of [lo, mid) and of [mid, hi) is a property of [lo, hi). -/
theorem forall_range_split (P : Fin 8192 → Prop) (lo mid hi : Nat) (h1 : lo ≤ mid) (h2 : mid ≤ hi) :
    ((∀ n : Fin 8192, lo ≤ n.val → n.val < mid → P n) ∧ (∀ n : Fin 8192, mid ≤ n.val → n.val < hi → P n))
      ↔ ∀ n : Fin 8192, lo ≤ n.val → n.val < hi → P n := by
  constructor
  · rintro ⟨ha, hb⟩ n hlo hhi
    by_cases hm : n.val < mid
    · exact ha n hlo hm
    · exact hb n (by omega) hhi
  · intro hP
    exact ⟨fun n hlo hhi => hP n hlo (by omega), fun n hlo hhi => hP n (by omega) hhi⟩

/-- A property of every column in [0, 8192) is a property of every column. -/
theorem forall_range_all (P : Fin 8192 → Prop) :
    (∀ n : Fin 8192, 0 ≤ n.val → n.val < 8192 → P n) ↔ ∀ n, P n :=
  ⟨fun h n => h n (Nat.zero_le _) n.isLt, fun h n _ _ => h n⟩

/-- The loss from the two arrays of least distances: the mean of the first (its sum over all 4 · 8192 entries divided
    by 32768) plus ten times the mean of the second. Both programs end with exactly these operations, so the proof never
    looks inside: equal arrays give equal losses. -/
def total (dx dy : FVec Ideal ⟨2, ![4, 8192]⟩ .f32) (h : (⟨2, ![4, 8192]⟩ : Shape).ReducesTo [0, 1] ⟨0, ![]⟩)
    (hu : 0 < (⟨0, ![]⟩ : Shape).numel) : FVec Ideal ⟨0, ![]⟩ .f32 :=
  addf (Host.divf (F := Ideal) (Host.reduceAdd (F := Ideal) dx (constant (F := Ideal) ⟨0, ![]⟩ .f32 0x00000000#32) h hu)
      (constant (F := Ideal) ⟨0, ![]⟩ .f32 0x47000000#32))
    (mulf (Host.divf (F := Ideal) (Host.reduceAdd (F := Ideal) dy (constant (F := Ideal) ⟨0, ![]⟩ .f32 0x00000000#32) h hu)
        (constant (F := Ideal) ⟨0, ![]⟩ .f32 0x47000000#32))
      (constant (F := Ideal) ⟨0, ![]⟩ .f32 0x41200000#32))

end Cert.Chamfer

end
-- ==== Proof.Payload.lean ====
/-
  The kernel body's arithmetic, read at an index, over the extended reals.

  One grid point holds a block of 256 points of the first cloud (a [4, 3, 256] array `xb`) and, in turn, four
  chunks of 2048 points of the second cloud (a [4, 3, 2048] array `yc`).  For a block and a chunk the body forms
  the [4, 256, 2048] matrix of clamped squared distances: entry (b, r, k) is `dist` of point r of the block and point k
  of the chunk, both of batch b — the row sums of squares, laid out as a column and as a row and broadcast, the
  matrix product over the three coordinates, twice the product subtracted, the result clamped at zero.  Its minimum
  along each row goes to the first output, its minimum along each column is folded into the second.
-/
import proofs.«157938_j11948599017824_2_alg».proof.Proof.Gen.KernelIdeal.Skeleton
import proofs.«157938_j11948599017824_2_alg».proof.Proof.Spec
import Idealize.ShloMosaic.Lib.Pipeline.Value
import Idealize.ShloMosaic.Lib.ValueIdx
import Idealize.ShloMosaic.PureOps.Ideal.Laws

noncomputable section

namespace Cert.Chamfer.Body

open Idealize.ShloMosaic Idealize.ShloMosaic.ValueIdx Idealize.SL.Sem
open Cert.KernelIdeal Cert.KernelIdeal.Gen Cert.Chamfer

/-! ## Sums of squares over the three coordinates -/

/-- The sum over the coordinate axis of a [4, 3, N] array of squares, at (b, n): Σ_c v(b, c, n)². -/
theorem sumsq_apply {N : Nat} (v : FVec Ideal ⟨3, ![4, 3, N]⟩ .f32)
    (h : Shape.Reduces ⟨3, ![4, 3, N]⟩ [1] ⟨2, ![4, N]⟩) (hφ : FKind.Formats .f32)
    (hacc : (0x00000000#32 : BitVec 32) = FKind.add.neutral .f32 hφ) (b : Fin 4) (n : Fin N) :
    multiReduction .add [1] ⟨2, ![4, N]⟩ (mulf v v) 0x00000000#32 h hφ hacc (ix2 b n)
      = ∑ c : Fin 3, v (ix3 b c n) * v (ix3 b c n) := by
  refine (Ideal.multiReduction_add_single (mulf v v) 0x00000000#32 h hφ hacc (ix2 b n)).trans ?_
  refine Finset.sum_congr rfl fun c _ => ?_
  have e : h.lift (ix2 b n) c = ix3 b c n :=
    funext fun a => Fin.ext (by match a with | ⟨0, _⟩ => rfl | ⟨1, _⟩ => rfl | ⟨2, _⟩ => rfl)
  rw [e]; rfl

/-- The block's squared norms as a column: entry (b, r, 0) is the squared norm of point r. -/
theorem pay2_apply (xb : Vec Ideal S4x3x256 .f32) (b : Fin 4) (r : Fin 256) :
    k0_pay2 (F := Ideal) xb (ix3 b r (0 : Fin 1)) = ∑ c : Fin 3, xb (ix3 b c r) * xb (ix3 b c r) := by
  unfold k0_pay2
  dsimp only
  refine (transpose_apply [0, 2, 1] _ _ (ix3 b r (0 : Fin 1)) (ix3 b (0 : Fin 1) r) (fun a => match a with
    | ⟨0, _⟩ => rfl | ⟨1, _⟩ => rfl | ⟨2, _⟩ => rfl)).trans ?_
  refine (shapeCast_apply _ _ (ix3 b (0 : Fin 1) r) (ix2 b r) (by
    rw [Shape.rowMajor_val_two, Shape.rowMajor_val_three]
    show b.val * 256 + r.val = (b.val * 1 + 0) * 256 + r.val
    omega)).trans ?_
  exact sumsq_apply xb _ _ _ b r

/-- The chunk's squared norms as a row. -/
def ysq (yc : Vec Ideal S4x3x2048 .f32) : FVec Ideal S4x1x2048 .f32 :=
  shapeCast S4x1x2048 (multiReduction .add [1] S4x2048 (mulf yc yc) 0x00000000#32 reduces_S4x3x2048_S4x2048 (.inl rfl) rfl)
    shapeCasts_S4x2048_S4x1x2048

theorem ysq_apply (yc : Vec Ideal S4x3x2048 .f32) (b : Fin 4) (k : Fin 2048) :
    ysq yc (ix3 b (0 : Fin 1) k) = ∑ c : Fin 3, yc (ix3 b c k) * yc (ix3 b c k) := by
  unfold ysq
  refine (shapeCast_apply _ _ (ix3 b (0 : Fin 1) k) (ix2 b k) (by
    rw [Shape.rowMajor_val_two, Shape.rowMajor_val_three]
    show b.val * 2048 + k.val = (b.val * 1 + 0) * 2048 + k.val
    omega)).trans ?_
  exact sumsq_apply yc _ _ _ b k

/-! ## The two broadcasts -/

/-- A column [4, 256, 1] broadcast along the chunk's points. -/
theorem bcast_col {α : Type} (v : S4x256x1.Idx → α) (h : S4x256x1.Broadcasts S4x256x2048) (b : Fin 4) (r : Fin 256) (k : Fin 2048) :
    broadcastTo S4x256x2048 v h (ix3 b r k) = v (ix3 b r (0 : Fin 1)) :=
  broadcastTo_apply v h (ix3 b r k) (ix3 b r (0 : Fin 1)) (fun a => match a with
    | ⟨0, _⟩ => by show b.val = if (4 : Nat) = 1 then 0 else b.val; rw [if_neg (by decide)]
    | ⟨1, _⟩ => by show r.val = if (256 : Nat) = 1 then 0 else r.val; rw [if_neg (by decide)]
    | ⟨2, _⟩ => by show 0 = if (1 : Nat) = 1 then 0 else k.val; rw [if_pos rfl])

/-- A row [4, 1, 2048] broadcast along the block's points. -/
theorem bcast_row {α : Type} (v : S4x1x2048.Idx → α) (h : S4x1x2048.Broadcasts S4x256x2048) (b : Fin 4) (r : Fin 256) (k : Fin 2048) :
    broadcastTo S4x256x2048 v h (ix3 b r k) = v (ix3 b (0 : Fin 1) k) :=
  broadcastTo_apply v h (ix3 b r k) (ix3 b (0 : Fin 1) k) (fun a => match a with
    | ⟨0, _⟩ => by show b.val = if (4 : Nat) = 1 then 0 else b.val; rw [if_neg (by decide)]
    | ⟨1, _⟩ => by show 0 = if (1 : Nat) = 1 then 0 else r.val; rw [if_pos rfl]
    | ⟨2, _⟩ => by show k.val = if (2048 : Nat) = 1 then 0 else k.val; rw [if_neg (by decide)])

/-! ## The matrix product over the three coordinates -/

theorem lhs0 (i : S4x256x2048.Idx) (q : dot_S4x3x256_S4x3x2048_S4x256x2048_1_1_2_2_0_0.contr.Idx) :
    (dot_S4x3x256_S4x3x2048_S4x256x2048_1_1_2_2_0_0.lhsIdx i q 0).val = (i 0).val := by
  unfold DotDims.lhsIdx
  rw [dif_pos (show (0 : Fin S4x3x256.rank) ∈ dot_S4x3x256_S4x3x2048_S4x256x2048_1_1_2_2_0_0.lhsBatch by decide)]
  rfl
theorem lhs2 (i : S4x256x2048.Idx) (q : dot_S4x3x256_S4x3x2048_S4x256x2048_1_1_2_2_0_0.contr.Idx) :
    (dot_S4x3x256_S4x3x2048_S4x256x2048_1_1_2_2_0_0.lhsIdx i q 2).val = (i 1).val := by
  unfold DotDims.lhsIdx
  rw [dif_neg (show ¬(2 : Fin S4x3x256.rank) ∈ dot_S4x3x256_S4x3x2048_S4x256x2048_1_1_2_2_0_0.lhsBatch by decide),
    dif_pos (show (2 : Fin S4x3x256.rank) ∈ dot_S4x3x256_S4x3x2048_S4x256x2048_1_1_2_2_0_0.lhsNonContracting by decide)]
  rfl
theorem lhs1 (i : S4x256x2048.Idx) (q : dot_S4x3x256_S4x3x2048_S4x256x2048_1_1_2_2_0_0.contr.Idx) :
    (dot_S4x3x256_S4x3x2048_S4x256x2048_1_1_2_2_0_0.lhsIdx i q 1).val = (q ⟨0, by decide⟩).val :=
  dot_S4x3x256_S4x3x2048_S4x256x2048_1_1_2_2_0_0.lhsIdx_val_of_single rfl i q
theorem rhs0 (i : S4x256x2048.Idx) (q : dot_S4x3x256_S4x3x2048_S4x256x2048_1_1_2_2_0_0.contr.Idx) :
    (dot_S4x3x256_S4x3x2048_S4x256x2048_1_1_2_2_0_0.rhsIdx i q 0).val = (i 0).val := by
  unfold DotDims.rhsIdx
  rw [dif_pos (show (0 : Fin S4x3x2048.rank) ∈ dot_S4x3x256_S4x3x2048_S4x256x2048_1_1_2_2_0_0.rhsBatch by decide)]
  rfl
theorem rhs2 (i : S4x256x2048.Idx) (q : dot_S4x3x256_S4x3x2048_S4x256x2048_1_1_2_2_0_0.contr.Idx) :
    (dot_S4x3x256_S4x3x2048_S4x256x2048_1_1_2_2_0_0.rhsIdx i q 2).val = (i 2).val := by
  unfold DotDims.rhsIdx
  rw [dif_neg (show ¬(2 : Fin S4x3x2048.rank) ∈ dot_S4x3x256_S4x3x2048_S4x256x2048_1_1_2_2_0_0.rhsBatch by decide),
    dif_pos (show (2 : Fin S4x3x2048.rank) ∈ dot_S4x3x256_S4x3x2048_S4x256x2048_1_1_2_2_0_0.rhsNonContracting by decide)]
  rfl
theorem rhs1 (i : S4x256x2048.Idx) (q : dot_S4x3x256_S4x3x2048_S4x256x2048_1_1_2_2_0_0.contr.Idx) :
    (dot_S4x3x256_S4x3x2048_S4x256x2048_1_1_2_2_0_0.rhsIdx i q 1).val = (q ⟨0, by decide⟩).val :=
  dot_S4x3x256_S4x3x2048_S4x256x2048_1_1_2_2_0_0.rhsIdx_val_of_single rfl i q

/-- The product of the block and the chunk into a zero accumulator, at (b, r, k): Σ_c xb(b, c, r) · yc(b, c, k). -/
theorem xy_apply (xb : FVec Ideal S4x3x256 .f32) (yc : FVec Ideal S4x3x2048 .f32) (b : Fin 4) (r : Fin 256) (k : Fin 2048) :
    matmul dot_S4x3x256_S4x3x2048_S4x256x2048_1_1_2_2_0_0 (some .fp32) xb yc (constant S4x256x2048 .f32 0x00000000#32) (ix3 b r k)
      = ∑ c : Fin 3, xb (ix3 b c r) * yc (ix3 b c k) := by
  refine (Ideal.matmul_constant_zero_apply dot_S4x3x256_S4x3x2048_S4x256x2048_1_1_2_2_0_0 (some .fp32) xb yc (ix3 b r k)).trans ?_
  rw [← Equiv.sum_comp (contrEquiv1 dot_S4x3x256_S4x3x2048_S4x256x2048_1_1_2_2_0_0 3 rfl rfl).symm]
  refine Finset.sum_congr rfl fun c _ => ?_
  have hk := contrEquiv1_symm_val dot_S4x3x256_S4x3x2048_S4x256x2048_1_1_2_2_0_0 3 rfl rfl c
  have el : dot_S4x3x256_S4x3x2048_S4x256x2048_1_1_2_2_0_0.lhsIdx (ix3 b r k)
      ((contrEquiv1 dot_S4x3x256_S4x3x2048_S4x256x2048_1_1_2_2_0_0 3 rfl rfl).symm c) = ix3 b c r :=
    funext fun a => Fin.ext (by
      match a with
      | ⟨0, _⟩ => exact lhs0 _ _
      | ⟨1, _⟩ => exact (lhs1 _ _).trans hk
      | ⟨2, _⟩ => exact lhs2 _ _)
  have er : dot_S4x3x256_S4x3x2048_S4x256x2048_1_1_2_2_0_0.rhsIdx (ix3 b r k)
      ((contrEquiv1 dot_S4x3x256_S4x3x2048_S4x256x2048_1_1_2_2_0_0 3 rfl rfl).symm c) = ix3 b c k :=
    funext fun a => Fin.ext (by
      match a with
      | ⟨0, _⟩ => exact rhs0 _ _
      | ⟨1, _⟩ => exact (rhs1 _ _).trans hk
      | ⟨2, _⟩ => exact rhs2 _ _)
  rw [el, er]

/-! ## The distance matrix of a block and a chunk -/

/-- The body's distance matrix, written out. -/
theorem pay4_eq (xb : Vec Ideal S4x3x256 .f32) (yc : Vec Ideal S4x3x2048 .f32) :
    k0_pay4 (F := Ideal) xb yc
      = maximumf (subf (addf (broadcastTo S4x256x2048 (k0_pay2 (F := Ideal) xb) broadcasts_S4x256x1_S4x256x2048)
            (broadcastTo S4x256x2048 (ysq yc) broadcasts_S4x1x2048_S4x256x2048))
          (mulf (broadcast S4x256x2048 (Scalar.ofBits (F := Ideal) .f32 0x40000000#32))
            (matmul (φ₁ := .f32) (φ₂ := .f32) dot_S4x3x256_S4x3x2048_S4x256x2048_1_1_2_2_0_0 (some .fp32) xb yc (constant S4x256x2048 .f32 0x00000000#32))))
        (broadcast S4x256x2048 (Scalar.ofBits (F := Ideal) .f32 0x00000000#32)) := rfl

/-- Entry (b, r, k) of the distance matrix is the clamped squared distance of point r of the block and point k of the
    chunk. -/
theorem dmat_apply (xb : Vec Ideal S4x3x256 .f32) (yc : Vec Ideal S4x3x2048 .f32) (b : Fin 4) (r : Fin 256) (k : Fin 2048) :
    k0_pay4 (F := Ideal) xb yc (ix3 b r k) = dist (col xb b r) (col yc b k) := by
  rw [pay4_eq]
  show max ((broadcastTo S4x256x2048 (k0_pay2 (F := Ideal) xb) broadcasts_S4x256x1_S4x256x2048 (ix3 b r k)
        + broadcastTo S4x256x2048 (ysq yc) broadcasts_S4x1x2048_S4x256x2048 (ix3 b r k))
      - Ideal.ofBits .f32 0x40000000#32
        * matmul (φ₁ := .f32) (φ₂ := .f32) dot_S4x3x256_S4x3x2048_S4x256x2048_1_1_2_2_0_0 (some .fp32) xb yc (constant S4x256x2048 .f32 0x00000000#32) (ix3 b r k))
      (Ideal.ofBits .f32 0x00000000#32) = _
  rw [bcast_col, bcast_row, pay2_apply, ysq_apply, xy_apply]
  rfl

/-- The same matrix as the later chunks spell it (the column of squared norms passed in; the product and the sum of
    norms computed ahead of the subtraction). -/
theorem pay7_eq (xb : Vec Ideal S4x3x256 .f32) (yc : Vec Ideal S4x3x2048 .f32) :
    k0_pay7 (F := Ideal) xb (k0_pay2 (F := Ideal) xb) yc = k0_pay4 (F := Ideal) xb yc := rfl
theorem pay12_eq (xb : Vec Ideal S4x3x256 .f32) (yc : Vec Ideal S4x3x2048 .f32) :
    k0_pay12 (F := Ideal) (k0_pay10 (F := Ideal) xb yc) (k0_pay11 (F := Ideal) (k0_pay2 (F := Ideal) xb) yc) = k0_pay4 (F := Ideal) xb yc := rfl
theorem pay14_eq (xb : Vec Ideal S4x3x256 .f32) (yc : Vec Ideal S4x3x2048 .f32) :
    k0_pay14 (F := Ideal) xb (k0_pay2 (F := Ideal) xb) yc = k0_pay4 (F := Ideal) xb yc := rfl

/-! ## Minima along the rows and along the columns -/

/-- The least entry of row (b, r) of a [4, 256, 2048] matrix. -/
theorem rowmin_apply (d : FVec Ideal S4x256x2048 .f32) (h : S4x256x2048.Reduces [2] S4x256) (hφ : FKind.Formats .f32)
    (hacc : (0x7F800000#32 : BitVec 32) = FKind.minimumf.neutral .f32 hφ) (b : Fin 4) (r : Fin 256) :
    multiReduction .minimumf [2] S4x256 d 0x7F800000#32 h hφ hacc (ix2 b r) = minOver fun k : Fin 2048 => d (ix3 b r k) := by
  refine (multiReduction_minimumf_eq_fold d 0x7F800000#32 h hφ hacc (ix2 b r)).trans ?_
  refine (h.fold_filter_drop_single _ _ d (ix2 b r)).trans ?_
  unfold minOver
  refine congrArg (Finset.fold min (Ideal.ofBits .f32 0x7F800000#32) · Finset.univ) (funext fun k => ?_)
  have e : h.lift (ix2 b r) k = ix3 b r k :=
    funext fun a => Fin.ext (by match a with | ⟨0, _⟩ => rfl | ⟨1, _⟩ => rfl | ⟨2, _⟩ => rfl)
  exact congrArg d e

/-- The least entry of column (b, k). -/
theorem colmin_apply (d : FVec Ideal S4x256x2048 .f32) (h : S4x256x2048.Reduces [1] S4x2048) (hφ : FKind.Formats .f32)
    (hacc : (0x7F800000#32 : BitVec 32) = FKind.minimumf.neutral .f32 hφ) (b : Fin 4) (k : Fin 2048) :
    multiReduction .minimumf [1] S4x2048 d 0x7F800000#32 h hφ hacc (ix2 b k) = minOver fun r : Fin 256 => d (ix3 b r k) := by
  refine (multiReduction_minimumf_eq_fold d 0x7F800000#32 h hφ hacc (ix2 b k)).trans ?_
  refine (h.fold_filter_drop_single _ _ d (ix2 b k)).trans ?_
  unfold minOver
  refine congrArg (Finset.fold min (Ideal.ofBits .f32 0x7F800000#32) · Finset.univ) (funext fun r => ?_)
  have e : h.lift (ix2 b k) r = ix3 b r k :=
    funext fun a => Fin.ext (by match a with | ⟨0, _⟩ => rfl | ⟨1, _⟩ => rfl | ⟨2, _⟩ => rfl)
  exact congrArg d e

/-! ## What one chunk folds into the running column minima -/

/-- After a chunk, entry (0, b, k) of the chunk's slice of the second output is the lesser of what it held and the least
    distance from point k of the chunk to the block's 256 points. -/
theorem pay6_apply (xb : Vec Ideal S4x3x256 .f32) (yc : Vec Ideal S4x3x2048 .f32) (oc : Vec Ideal S1x4x2048 .f32)
    (b : Fin 4) (k : Fin 2048) :
    k0_pay6 (F := Ideal) xb yc oc (ix3 (0 : Fin 1) b k)
      = min (oc (ix3 (0 : Fin 1) b k)) (minOver fun r : Fin 256 => dist (col xb b r) (col yc b k)) := by
  unfold k0_pay6
  dsimp only
  refine (shapeCast_apply _ _ (ix3 (0 : Fin 1) b k) (ix2 b k) (by
    rw [Shape.rowMajor_val_two, Shape.rowMajor_val_three]
    show b.val * 2048 + k.val = (0 * 4 + b.val) * 2048 + k.val
    omega)).trans ?_
  show min (shapeCast S4x2048 oc _ (ix2 b k)) (multiReduction .minimumf [1] S4x2048 (k0_pay4 (F := Ideal) xb yc) _ _ _ _ (ix2 b k)) = _
  refine congrArg₂ min ?_ ?_
  · exact shapeCast_apply oc _ (ix2 b k) (ix3 (0 : Fin 1) b k) (by
      rw [Shape.rowMajor_val_two, Shape.rowMajor_val_three]
      show (0 * 4 + b.val) * 2048 + k.val = b.val * 2048 + k.val
      omega)
  · refine (colmin_apply _ _ _ _ b k).trans ?_
    exact congrArg minOver (funext fun r => dmat_apply xb yc b r k)

/-- The later chunks spell the same step differently. -/
theorem pay9_eq (xb : Vec Ideal S4x3x256 .f32) (yc : Vec Ideal S4x3x2048 .f32) (oc : Vec Ideal S1x4x2048 .f32) :
    k0_pay9 (F := Ideal) xb (k0_pay2 (F := Ideal) xb) yc oc = k0_pay6 (F := Ideal) xb yc oc := rfl
theorem pay13_eq (xb : Vec Ideal S4x3x256 .f32) (yc : Vec Ideal S4x3x2048 .f32) (oc : Vec Ideal S1x4x2048 .f32) :
    k0_pay13 (F := Ideal) (k0_pay10 (F := Ideal) xb yc) (k0_pay11 (F := Ideal) (k0_pay2 (F := Ideal) xb) yc) oc = k0_pay6 (F := Ideal) xb yc oc := rfl
theorem pay1_eq (xb : Vec Ideal S4x3x256 .f32) (yc : Vec Ideal S4x3x2048 .f32) (oc : Vec Ideal S1x4x2048 .f32) :
    k0_pay1 (F := Ideal) (k0_pay16 (F := Ideal) xb (k0_pay2 (F := Ideal) xb) yc oc) = k0_pay6 (F := Ideal) xb yc oc := rfl
/-! ## The running row minima after the four chunks -/

/-- The row minima of one distance matrix. -/
def rowm (d : FVec Ideal S4x256x2048 .f32) : FVec Ideal S4x256 .f32 :=
  multiReduction .minimumf [2] S4x256 d 0x7F800000#32 reduces_S4x256x2048_S4x256 (.inl rfl) rfl

theorem rowm_apply (d : FVec Ideal S4x256x2048 .f32) (b : Fin 4) (r : Fin 256) :
    rowm d (ix2 b r) = minOver fun k : Fin 2048 => d (ix3 b r k) := rowmin_apply d _ _ _ b r

/-- The first output's block, from +∞ through the four chunks' row minima in turn. -/
theorem pay15_eq (xb : Vec Ideal S4x3x256 .f32) (y0 y1 y2 y3 : Vec Ideal S4x3x2048 .f32) :
    k0_pay15 (F := Ideal) xb (k0_pay2 (F := Ideal) xb)
        (k0_pay8 (F := Ideal) xb (k0_pay2 (F := Ideal) xb) (k0_pay5 (F := Ideal) xb y0) y1)
        (k0_pay10 (F := Ideal) xb y2) (k0_pay11 (F := Ideal) (k0_pay2 (F := Ideal) xb) y2) y3
      = minimumf (minimumf (minimumf (minimumf (broadcast S4x256 (Scalar.ofBits (F := Ideal) .f32 0x7F800000#32))
          (rowm (k0_pay4 (F := Ideal) xb y0))) (rowm (k0_pay4 (F := Ideal) xb y1))) (rowm (k0_pay4 (F := Ideal) xb y2)))
          (rowm (k0_pay4 (F := Ideal) xb y3)) := rfl

/-- The entry of a fourfold pointwise minimum. -/
theorem min4_apply (T V0 V1 V2 V3 : FVec Ideal S4x256 .f32) (i : S4x256.Idx) :
    minimumf (minimumf (minimumf (minimumf T V0) V1) V2) V3 i = min (min (min (min (T i) (V0 i)) (V1 i)) (V2 i)) (V3 i) := rfl

/-- Entry (b, r) of the first output's block is the least distance from point r of the block to the points of all four
    chunks. -/
theorem pay15_le (xb : Vec Ideal S4x3x256 .f32) (y0 y1 y2 y3 : Vec Ideal S4x3x2048 .f32) (b : Fin 4) (r : Fin 256) (z : EReal) :
    z ≤ k0_pay15 (F := Ideal) xb (k0_pay2 (F := Ideal) xb)
        (k0_pay8 (F := Ideal) xb (k0_pay2 (F := Ideal) xb) (k0_pay5 (F := Ideal) xb y0) y1)
        (k0_pay10 (F := Ideal) xb y2) (k0_pay11 (F := Ideal) (k0_pay2 (F := Ideal) xb) y2) y3 (ix2 b r)
      ↔ ((∀ k, z ≤ dist (col xb b r) (col y0 b k)) ∧ (∀ k, z ≤ dist (col xb b r) (col y1 b k))
        ∧ (∀ k, z ≤ dist (col xb b r) (col y2 b k)) ∧ (∀ k, z ≤ dist (col xb b r) (col y3 b k))) := by
  have hT : broadcast S4x256 (Scalar.ofBits (F := Ideal) .f32 0x7F800000#32) (ix2 b r) = (⊤ : EReal) := ofBits_inf
  rw [pay15_eq, min4_apply, hT, rowm_apply, rowm_apply, rowm_apply, rowm_apply]
  simp only [le_min_iff, le_top, true_and, le_minOver, and_assoc, dmat_apply]

end Cert.Chamfer.Body

end
-- ==== Proof.Pieces.lean ====
/-
  What one grid point leaves in the two output blocks, as functions of the blocks it finds.

  The first output's block [4, 256] is stored once, whole: entry (b, r) is the least distance from point r of the block
  of the first cloud to every point of the second cloud (the four chunks of 2048 together are all 8192 columns).

  The second output's block [1, 4, 8192] is stored in four column slices of 2048; slice j holds, at (0, b, m), the
  lesser of what the block held there before and the least distance from point m of the second cloud to the 256 points
  of the block of the first cloud.  So the four slices together are ONE function of the block's index.  At the first
  point of a run the block is first filled with +∞, and each slice then reads that fill back.
-/
import proofs.«157938_j11948599017824_2_alg».proof.Proof.Gen.KernelIdeal.Frame
import proofs.«157938_j11948599017824_2_alg».proof.Proof.Payload
import Idealize.ShloMosaic.Lib.Pipeline.Value
import Idealize.ShloMosaic.Lib.Pipeline.CanonAppend
import Idealize.ShloMosaic.Lib.Tactic

set_option maxRecDepth 16384

noncomputable section

namespace Cert.Chamfer.Pieces

open Idealize.ShloMosaic Idealize.ShloMosaic.TcCoe Idealize.ShloMosaic.ValueIdx Idealize.ShloMosaic.Tactic Idealize.SL.Sem
open Cert.KernelIdeal Cert.KernelIdeal.Gen Cert.Chamfer Cert.Chamfer.Body

theorem hz2 : (![0, 0] : Fin 2 → Nat) = fun _ => 0 := funext fun a => by fin_cases a <;> rfl
theorem hz3 : (![0, 0, 0] : Fin 3 → Nat) = fun _ => 0 := funext fun a => by fin_cases a <;> rfl

/-! ## Reading a chunk of columns -/

/-- Point k of the chunk of the second cloud that starts at column o is point o + k of the cloud. -/
theorem ld_chunk (y : Vec Ideal S4x3x8192 .f32) (o : Nat) (ho : o + 2048 ≤ 8192)
    (inb : ∀ a, (![0, 0, o] : Fin 3 → Nat) a + S4x3x2048.size a ≤ S4x3x8192.size a) (b : Fin 4) (k : Fin 2048) :
    col (N := 2048) (View.ld y (Rect.unit ![0, 0, o] S4x3x2048.size inb)) b k = col y b ⟨o + k.val, by omega⟩ := by
  funext c
  show y ((Rect.unit (s := S4x3x8192) ![0, 0, o] S4x3x2048.size inb).idx (ix3 b c k)) = y (ix3 b c ⟨o + k.val, _⟩)
  refine congrArg y (funext fun a => Fin.ext ?_)
  match a with
  | ⟨0, _⟩ => show 0 + 1 * b.val = b.val; omega
  | ⟨1, _⟩ => show 0 + 1 * c.val = c.val; omega
  | ⟨2, _⟩ => show o + 1 * k.val = o + k.val; omega

/-- Entry (0, b, k) of the slice of the second output's block that starts at column o is entry (0, b, o + k) of the
    block. -/
theorem idx_slice (o : Nat) (ho : o + 2048 ≤ 8192) (size : Fin 3 → Nat) (hs : size = ![1, 4, 2048])
    (inb : ∀ a, (![0, 0, o] : Fin 3 → Nat) a + size a ≤ S1x4x8192.size a) (x : (⟨3, size⟩ : Shape).Idx)
    (u : Fin 1) (b : Fin 4) (k : Fin 2048) (hu : (x 0).val = u.val) (hb : (x 1).val = b.val) (hk : (x 2).val = k.val) :
    (Rect.unit ![0, 0, o] size inb).idx x = (ix3 (0 : Fin 1) b ⟨o + k.val, by omega⟩ : S1x4x8192.Idx) := by
  refine funext fun a => Fin.ext ?_
  match a with
  | ⟨0, _⟩ => show 0 + 1 * (x 0).val = 0; have := u.isLt; omega
  | ⟨1, _⟩ => show 0 + 1 * (x 1).val = b.val; omega
  | ⟨2, _⟩ => show o + 1 * (x 2).val = o + k.val; omega

/-- A bound on the distance to point k of a chunk is a bound on the distance to point o + k of the cloud. -/
theorem le_dist_chunk (p : Fin 3 → EReal) (y : Vec Ideal S4x3x8192 .f32) (o : Nat) (ho : o + 2048 ≤ 8192)
    (inb : ∀ a, (![0, 0, o] : Fin 3 → Nat) a + S4x3x2048.size a ≤ S4x3x8192.size a) (b : Fin 4) (k : Fin 2048) (z : EReal) :
    z ≤ dist p (col (N := 2048) (View.ld y (Rect.unit ![0, 0, o] S4x3x2048.size inb)) b k)
      ↔ z ≤ dist p (col y b ⟨o + k.val, by omega⟩) := by
  rw [ld_chunk y o ho inb b k]

/-! ## The first output's block -/

/-- Entry (b, r) of what a later point of a run leaves in the first output's block. -/
theorem outB2_le (c : Dev nD) (i : grid0.Coords) (a2 : Memref sig .tc .vmem S4x3x256 .f32) (h2 : a2.IsWhole)
    (a3 : Memref sig .tc .vmem S4x3x8192 .f32) (h3 : a3.IsWhole) (a4 : Memref sig .tc .vmem S4x256 .f32) (h4 : a4.IsWhole)
    (a5 : Memref sig .tc .vmem S1x4x8192 .f32) (h5 : a5.IsWhole) (hc : ¬cond0_0 i)
    (x0 : Vec Ideal S4x3x256 .f32) (x1 : Vec Ideal S4x3x8192 .f32) (xo3 : Vec Ideal S1x4x8192 .f32)
    (b : Fin 4) (r : Fin 256) (z : EReal) :
    z ≤ out0_B_2 (F := Ideal) c i a2 h2 a3 h3 a4 h4 a5 h5 hc x0 x1 xo3 (ix2 b r)
      ↔ ∀ m : Fin 8192, z ≤ dist (col x0 b r) (col x1 b m) := by
  unfold out0_B_2
  rw [View.read_writes_eq_canon _ _ _ (cover0_B_2 c i a2 h2 a3 h3 a4 h4 a5 h5 hc x0 x1 xo3)]
  unfold kernelRun0_B
  dsimp only
  sl_unfold_words
  rw [View.canon_unit_zero hz2]
  simp only [View.readAt_eq_ld, h2.read_unread, h3.read_unread, View.ld_unit_zero (S := S4x3x256) hz3]
  refine (pay15_le x0 _ _ _ _ b r z).trans ?_
  rw [forall_chunks]
  refine and_congr (forall_congr' fun k => ?_) (and_congr (forall_congr' fun k => ?_)
    (and_congr (forall_congr' fun k => ?_) (forall_congr' fun k => ?_)))
  · exact le_dist_chunk _ x1 0 (by norm_num) _ b k z
  · exact le_dist_chunk _ x1 2048 (by norm_num) _ b k z
  · exact le_dist_chunk _ x1 4096 (by norm_num) _ b k z
  · exact le_dist_chunk _ x1 6144 (by norm_num) _ b k z

/-- The same at the first point of a run. -/
theorem outA2_le (c : Dev nD) (i : grid0.Coords) (a2 : Memref sig .tc .vmem S4x3x256 .f32) (h2 : a2.IsWhole)
    (a3 : Memref sig .tc .vmem S4x3x8192 .f32) (h3 : a3.IsWhole) (a4 : Memref sig .tc .vmem S4x256 .f32) (h4 : a4.IsWhole)
    (a5 : Memref sig .tc .vmem S1x4x8192 .f32) (h5 : a5.IsWhole) (hc : cond0_0 i)
    (x0 : Vec Ideal S4x3x256 .f32) (x1 : Vec Ideal S4x3x8192 .f32)
    (b : Fin 4) (r : Fin 256) (z : EReal) :
    z ≤ out0_A_2 (F := Ideal) c i a2 h2 a3 h3 a4 h4 a5 h5 hc x0 x1 (ix2 b r)
      ↔ ∀ m : Fin 8192, z ≤ dist (col x0 b r) (col x1 b m) := by
  unfold out0_A_2
  rw [View.read_writes_eq_canon _ _ _ (cover0_A_2 c i a2 h2 a3 h3 a4 h4 a5 h5 hc x0 x1)]
  unfold kernelRun0_A
  dsimp only
  sl_unfold_words
  rw [View.canon_unit_zero hz2]
  simp only [View.readAt_eq_ld, h2.read_unread, h3.read_unread, View.ld_unit_zero (S := S4x3x256) hz3]
  refine (pay15_le x0 _ _ _ _ b r z).trans ?_
  rw [forall_chunks]
  refine and_congr (forall_congr' fun k => ?_) (and_congr (forall_congr' fun k => ?_)
    (and_congr (forall_congr' fun k => ?_) (forall_congr' fun k => ?_)))
  · exact le_dist_chunk _ x1 0 (by norm_num) _ b k z
  · exact le_dist_chunk _ x1 2048 (by norm_num) _ b k z
  · exact le_dist_chunk _ x1 4096 (by norm_num) _ b k z
  · exact le_dist_chunk _ x1 6144 (by norm_num) _ b k z

/-! ## The second output's block -/

/-- What a point folds into the second output's block: at (0, b, m) the lesser of what was there and the least distance
    from point m of the second cloud to the 256 points of the block of the first cloud. -/
def acc (x0 : Vec Ideal S4x3x256 .f32) (x1 : Vec Ideal S4x3x8192 .f32) (xo : Vec Ideal S1x4x8192 .f32) :
    Vec Ideal S1x4x8192 .f32 :=
  fun y => min (xo y) (minOver fun r : Fin 256 =>
    dist (col x0 ⟨(y 1).val, (y 1).isLt⟩ r) (col x1 ⟨(y 1).val, (y 1).isLt⟩ ⟨(y 2).val, (y 2).isLt⟩))

theorem acc_apply (x0 : Vec Ideal S4x3x256 .f32) (x1 : Vec Ideal S4x3x8192 .f32) (xo : Vec Ideal S1x4x8192 .f32)
    (b : Fin 4) (m : Fin 8192) :
    acc x0 x1 xo (ix3 (0 : Fin 1) b m)
      = min (xo (ix3 (0 : Fin 1) b m)) (minOver fun r : Fin 256 => dist (col x0 b r) (col x1 b m)) := rfl

/-- Entry (0, b, k) of the slice of the block that starts at column o is entry (0, b, o + k) of the block. -/
theorem emb_slice (o : Nat) (ho : o + 2048 ≤ 8192)
    (inb : ∀ a, (![0, 0, o] : Fin 3 → Nat) a + (![1, 4, 2048] : Fin 3 → Nat) a ≤ S1x4x8192.size a) (b : Fin 4) (k : Fin 2048) :
    (Rect.unit (s := S1x4x8192) ![0, 0, o] ![1, 4, 2048] inb).idx (ix3 (0 : Fin 1) b k)
      = (ix3 (0 : Fin 1) b ⟨o + k.val, by omega⟩ : S1x4x8192.Idx) := by
  refine funext fun a => Fin.ext ?_
  match a with
  | ⟨0, _⟩ => show 0 + 1 * 0 = 0; rfl
  | ⟨1, _⟩ => show 0 + 1 * b.val = b.val; omega
  | ⟨2, _⟩ => show o + 1 * k.val = o + k.val; omega

/-- A slice of the block's old contents, read through the load's rectangle. -/
theorem old_slice (xo : Vec Ideal S1x4x8192 .f32) (o : Nat) (ho : o + 2048 ≤ 8192)
    (inb : ∀ a, (![0, 0, o] : Fin 3 → Nat) a + (![1, 4, 2048] : Fin 3 → Nat) a ≤ S1x4x8192.size a) (b : Fin 4) (k : Fin 2048) :
    View.ld xo (Rect.unit ![0, 0, o] ![1, 4, 2048] inb) (ix3 (0 : Fin 1) b k) = xo (ix3 (0 : Fin 1) b ⟨o + k.val, by omega⟩) :=
  congrArg xo (emb_slice o ho inb b k)

/-- ONE SLICE: the store of the chunk that starts at column o writes the block's function `acc` on its columns, whenever
    the slice it read back (`oc`) was the slice of `xo`. -/
theorem slice_piece (x0 : Vec Ideal S4x3x256 .f32) (x1 : Vec Ideal S4x3x8192 .f32) (xo : Vec Ideal S1x4x8192 .f32)
    (o : Nat) (ho : o + 2048 ≤ 8192)
    (inbY : ∀ a, (![0, 0, o] : Fin 3 → Nat) a + S4x3x2048.size a ≤ S4x3x8192.size a)
    (inbR : ∀ a, (![0, 0, o] : Fin 3 → Nat) a + (![1, 4, 2048] : Fin 3 → Nat) a ≤ S1x4x8192.size a)
    (oc : Vec Ideal S1x4x2048 .f32)
    (hoc : ∀ (b : Fin 4) (k : Fin 2048), oc (ix3 (0 : Fin 1) b k) = xo (ix3 (0 : Fin 1) b ⟨o + k.val, by omega⟩))
    (x : (⟨3, ![1, 4, 2048]⟩ : Shape).Idx) :
    k0_pay6 (F := Ideal) x0 (View.ld x1 (Rect.unit ![0, 0, o] S4x3x2048.size inbY)) oc x
      = acc x0 x1 xo ((Rect.unit (s := S1x4x8192) ![0, 0, o] ![1, 4, 2048] inbR).emb x) := by
  obtain ⟨u, b, k, rfl⟩ : ∃ (u : Fin 1) (b : Fin 4) (k : Fin 2048), x = ix3 u b k := ⟨x 0, x 1, x 2, eq_ix3 x⟩
  obtain rfl : u = 0 := Subsingleton.elim _ _
  refine (pay6_apply x0 _ oc b k).trans ?_
  rw [hoc, ld_chunk x1 o ho inbY b k]
  show _ = acc x0 x1 xo ((Rect.unit (s := S1x4x8192) ![0, 0, o] ![1, 4, 2048] inbR).idx (ix3 (0 : Fin 1) b k))
  rw [emb_slice o ho inbR b k, acc_apply]

/-- What a later point of a run leaves in the second output's block: `acc` of the block of the first cloud, the second
    cloud, and what the block held. -/
theorem outB3_eq (c : Dev nD) (i : grid0.Coords) (a2 : Memref sig .tc .vmem S4x3x256 .f32) (h2 : a2.IsWhole)
    (a3 : Memref sig .tc .vmem S4x3x8192 .f32) (h3 : a3.IsWhole) (a4 : Memref sig .tc .vmem S4x256 .f32) (h4 : a4.IsWhole)
    (a5 : Memref sig .tc .vmem S1x4x8192 .f32) (h5 : a5.IsWhole) (hc : ¬cond0_0 i)
    (x0 : Vec Ideal S4x3x256 .f32) (x1 : Vec Ideal S4x3x8192 .f32) (xo3 : Vec Ideal S1x4x8192 .f32) :
    out0_B_3 (F := Ideal) c i a2 h2 a3 h3 a4 h4 a5 h5 hc x0 x1 xo3 = acc x0 x1 xo3 := by
  funext y
  unfold out0_B_3
  rw [View.read_writes_eq_canon _ _ _ (cover0_B_3 c i a2 h2 a3 h3 a4 h4 a5 h5 hc x0 x1 xo3)]
  have hcov := cover0_B_3 c i a2 h2 a3 h3 a4 h4 a5 h5 hc x0 x1 xo3 y
  revert hcov
  unfold kernelRun0_B
  dsimp only
  sl_unfold_words
  simp only [View.readAt_eq_ld, h2.read_unread, h3.read_unread, h5.read_unread, View.ld_unit_zero (S := S4x3x256) hz3]
  intro hcov
  refine View.canon_apply_of_pieces (acc x0 x1 xo3) _ ?_ y hcov
  intro p hp x
  simp only [List.mem_cons, List.mem_nil_iff, or_false] at hp
  rcases hp with rfl | rfl | rfl | rfl
  · exact (congrFun (pay1_eq x0 _ _) x).trans
      (slice_piece x0 x1 xo3 6144 (by norm_num) (by decide) (by decide) _ (fun b k => old_slice xo3 6144 (by norm_num) (by decide) b k) x)
  · exact (congrFun (pay13_eq x0 _ _) x).trans
      (slice_piece x0 x1 xo3 4096 (by norm_num) (by decide) (by decide) _ (fun b k => old_slice xo3 4096 (by norm_num) (by decide) b k) x)
  · exact (congrFun (pay9_eq x0 _ _) x).trans
      (slice_piece x0 x1 xo3 2048 (by norm_num) (by decide) (by decide) _ (fun b k => old_slice xo3 2048 (by norm_num) (by decide) b k) x)
  · exact slice_piece x0 x1 xo3 0 (by norm_num) (by decide) (by decide) _ (fun b k => old_slice xo3 0 (by norm_num) (by decide) b k) x

/-! ## The first point of a run: the block is filled with +∞ first -/

/-- A store on other columns does not change what a column reads. -/
theorem canon_skip (o o' : Nat) (h : o' + 2048 ≤ o) (ho : o + 2048 ≤ 8192)
    (inb' : ∀ a, (![0, 0, o'] : Fin 3 → Nat) a + (![1, 4, 2048] : Fin 3 → Nat) a ≤ S1x4x8192.size a)
    (w : (⟨3, ![1, 4, 2048]⟩ : Shape).Idx → Elt Ideal .f32) (L : List (View.Piece (Elt Ideal) S1x4x8192 .f32))
    (b : Fin 4) (k : Fin 2048) :
    View.canon ((⟨Rect.unit ![0, 0, o'] ![1, 4, 2048] inb', w⟩ : View.Piece (Elt Ideal) S1x4x8192 .f32) :: L)
        (ix3 (0 : Fin 1) b ⟨o + k.val, by omega⟩)
      = View.canon L (ix3 (0 : Fin 1) b ⟨o + k.val, by omega⟩) :=
  View.canon_cons_of_not_mem _ _ (fun hm => by
    have h2 : o' ≤ o + k.val ∧ o + k.val < o' + 2048 :=
      (Rect.mem_set_unit (s := S1x4x8192) (off := ![0, 0, o']) (size := ![1, 4, 2048]) (inb := inb')).mp hm (2 : Fin 3)
    omega)

/-- A slice read back after earlier stores reads the fill wherever those stores leave the fill. -/
theorem fill_slice (v : View sig .tc .vmem S1x4x8192 .f32) (L : List (View.Piece (Elt Ideal) S1x4x8192 .f32))
    (o : Nat) (ho : o + 2048 ≤ 8192)
    (inb : ∀ a, (![0, 0, o] : Fin 3 → Nat) a + (![1, 4, 2048] : Fin 3 → Nat) a ≤ S1x4x8192.size a) (b : Fin 4) (k : Fin 2048)
    (hL : View.canon L (ix3 (0 : Fin 1) b ⟨o + k.val, by omega⟩) = k0_pay3 (F := Ideal) (ix3 (0 : Fin 1) b ⟨o + k.val, by omega⟩)) :
    v.readCov L (Rect.unit (s := S1x4x8192) ![0, 0, o] ![1, 4, 2048] inb).toLoadRect (ix3 (0 : Fin 1) b k)
      = k0_pay3 (F := Ideal) (ix3 (0 : Fin 1) b ⟨o + k.val, by omega⟩) := by
  rw [View.readCov_eq_canon']
  show View.canon L ((Rect.unit (s := S1x4x8192) ![0, 0, o] ![1, 4, 2048] inb).idx (ix3 (0 : Fin 1) b k)) = _
  rw [emb_slice o ho inb b k]
  exact hL

/-- Every column lies in one of the four slices. -/
theorem cover4 (y : S1x4x8192.Idx)
    (inb3 : ∀ a, (![0, 0, 6144] : Fin 3 → Nat) a + (![1, 4, 2048] : Fin 3 → Nat) a ≤ S1x4x8192.size a)
    (inb2 : ∀ a, (![0, 0, 4096] : Fin 3 → Nat) a + (![1, 4, 2048] : Fin 3 → Nat) a ≤ S1x4x8192.size a)
    (inb1 : ∀ a, (![0, 0, 2048] : Fin 3 → Nat) a + (![1, 4, 2048] : Fin 3 → Nat) a ≤ S1x4x8192.size a)
    (inb0 : ∀ a, (![0, 0, 0] : Fin 3 → Nat) a + (![1, 4, 2048] : Fin 3 → Nat) a ≤ S1x4x8192.size a)
    (w3 w2 w1 w0 : (⟨3, ![1, 4, 2048]⟩ : Shape).Idx → Elt Ideal .f32) :
    ∃ p ∈ ([⟨Rect.unit ![0, 0, 6144] ![1, 4, 2048] inb3, w3⟩, ⟨Rect.unit ![0, 0, 4096] ![1, 4, 2048] inb2, w2⟩,
        ⟨Rect.unit ![0, 0, 2048] ![1, 4, 2048] inb1, w1⟩, ⟨Rect.unit ![0, 0, 0] ![1, 4, 2048] inb0, w0⟩] :
          List (View.Piece (Elt Ideal) S1x4x8192 .f32)), y ∈ p.1.set := by
  have h0 : (y 0).val < 1 := (y 0).isLt
  have h1 : (y 1).val < 4 := (y 1).isLt
  have h2 : (y 2).val < 8192 := (y 2).isLt
  have key : ∀ (o : Nat) (inb : ∀ a, (![0, 0, o] : Fin 3 → Nat) a + (![1, 4, 2048] : Fin 3 → Nat) a ≤ S1x4x8192.size a),
      o ≤ (y 2).val → (y 2).val < o + 2048 → y ∈ (Rect.unit (s := S1x4x8192) ![0, 0, o] ![1, 4, 2048] inb).set :=
    fun o inb hlo hhi => Rect.mem_set_unit.mpr fun a => by
      match a with
      | ⟨0, _⟩ => exact ⟨Nat.zero_le _, by show (y 0).val < 0 + 1; omega⟩
      | ⟨1, _⟩ => exact ⟨Nat.zero_le _, by show (y 1).val < 0 + 4; omega⟩
      | ⟨2, _⟩ => exact ⟨hlo, hhi⟩
  by_cases c3 : 6144 ≤ (y 2).val
  · exact ⟨_, List.mem_cons_self, key 6144 inb3 c3 (by omega)⟩
  by_cases c2 : 4096 ≤ (y 2).val
  · exact ⟨_, List.mem_cons_of_mem _ List.mem_cons_self, key 4096 inb2 c2 (by omega)⟩
  by_cases c1 : 2048 ≤ (y 2).val
  · exact ⟨_, List.mem_cons_of_mem _ (List.mem_cons_of_mem _ List.mem_cons_self), key 2048 inb1 c1 (by omega)⟩
  · exact ⟨_, List.mem_cons_of_mem _ (List.mem_cons_of_mem _ (List.mem_cons_of_mem _ List.mem_cons_self)),
      key 0 inb0 (Nat.zero_le _) (by omega)⟩

/-- Four stores that are blocks of one function, whatever was stored before them. -/
theorem canon_four (G : S1x4x8192.Idx → Elt Ideal .f32) (p3 p2 p1 p0 : View.Piece (Elt Ideal) S1x4x8192 .f32)
    (L' : List (View.Piece (Elt Ideal) S1x4x8192 .f32))
    (h : ∀ p ∈ [p3, p2, p1, p0], ∀ x : p.1.shape.Idx, p.2 x = G (p.1.emb x)) (y : S1x4x8192.Idx)
    (hy : ∃ p ∈ [p3, p2, p1, p0], y ∈ p.1.set) : View.canon (p3 :: p2 :: p1 :: p0 :: L') y = G y :=
  View.canon_append_of_pieces G L' [p3, p2, p1, p0] h y hy

/-- What the first point of a run leaves in the second output's block: `acc` over the fill. -/
theorem outA3_eq (c : Dev nD) (i : grid0.Coords) (a2 : Memref sig .tc .vmem S4x3x256 .f32) (h2 : a2.IsWhole)
    (a3 : Memref sig .tc .vmem S4x3x8192 .f32) (h3 : a3.IsWhole) (a4 : Memref sig .tc .vmem S4x256 .f32) (h4 : a4.IsWhole)
    (a5 : Memref sig .tc .vmem S1x4x8192 .f32) (h5 : a5.IsWhole) (hc : cond0_0 i)
    (x0 : Vec Ideal S4x3x256 .f32) (x1 : Vec Ideal S4x3x8192 .f32) :
    out0_A_3 (F := Ideal) c i a2 h2 a3 h3 a4 h4 a5 h5 hc x0 x1 = acc x0 x1 (k0_pay3 (F := Ideal)) := by
  funext y
  unfold out0_A_3
  rw [View.read_writes_eq_canon _ _ _ (cover0_A_3 c i a2 h2 a3 h3 a4 h4 a5 h5 hc x0 x1)]
  unfold kernelRun0_A
  dsimp only
  sl_unfold_words
  simp only [View.readAt_eq_ld, h2.read_unread, h3.read_unread, View.ld_unit_zero (S := S4x3x256) hz3]
  refine canon_four (acc x0 x1 (k0_pay3 (F := Ideal))) _ _ _ _ _ ?_ y (cover4 y _ _ _ _ _ _ _ _)
  intro p hp x
  simp only [List.mem_cons, List.mem_nil_iff, or_false] at hp
  rcases hp with rfl | rfl | rfl | rfl
  · exact (congrFun (pay1_eq x0 _ _) x).trans
      (slice_piece x0 x1 _ 6144 (by norm_num) (by decide) (by decide) _ (fun b k => fill_slice _ _ 6144 (by norm_num) (by decide) b k
        ((canon_skip 6144 4096 (by norm_num) (by norm_num) _ _ _ b k).trans
          ((canon_skip 6144 2048 (by norm_num) (by norm_num) _ _ _ b k).trans
            ((canon_skip 6144 0 (by norm_num) (by norm_num) _ _ _ b k).trans
              (congrFun (View.canon_cons_unit_zero hz3 _ _ _) _))))) x)
  · exact (congrFun (pay13_eq x0 _ _) x).trans
      (slice_piece x0 x1 _ 4096 (by norm_num) (by decide) (by decide) _ (fun b k => fill_slice _ _ 4096 (by norm_num) (by decide) b k
        ((canon_skip 4096 2048 (by norm_num) (by norm_num) _ _ _ b k).trans
          ((canon_skip 4096 0 (by norm_num) (by norm_num) _ _ _ b k).trans
            (congrFun (View.canon_cons_unit_zero hz3 _ _ _) _)))) x)
  · exact (congrFun (pay9_eq x0 _ _) x).trans
      (slice_piece x0 x1 _ 2048 (by norm_num) (by decide) (by decide) _ (fun b k => fill_slice _ _ 2048 (by norm_num) (by decide) b k
        ((canon_skip 2048 0 (by norm_num) (by norm_num) _ _ _ b k).trans
          (congrFun (View.canon_cons_unit_zero hz3 _ _ _) _))) x)
  · exact slice_piece x0 x1 _ 0 (by norm_num) (by decide) (by decide) _ (fun b k => fill_slice _ _ 0 (by norm_num) (by decide) b k
        (congrFun (View.canon_cons_unit_zero hz3 _ _ _) _)) x

end Cert.Chamfer.Pieces

end
-- ==== Proof.Invariant.lean ====
/-
  What the two output blocks hold after each grid point, in terms of the two clouds.

  The grid has 32 points; point t holds the block of 256 points of the first cloud that starts at point 256·t, and the
  whole second cloud.  Points 0 … 15 and 16 … 31 are the two runs: a run starts by filling the second output's block with
  +∞, and each point of the run folds its block's least distances into it.  So after point t the second output's block
  holds, at (0, b, m), the least distance from point m of the second cloud to the points 4096·⌊t/16⌋ … 256·(t+1) − 1 of
  the first cloud — all the points of the run so far — and the first output's block holds, at (b, r), the least distance
  from point 256·t + r of the first cloud to the second cloud.
-/
import proofs.«157938_j11948599017824_2_alg».proof.Proof.Pieces

set_option maxRecDepth 16384

noncomputable section

namespace Cert.Chamfer.Grid

open Idealize.ShloMosaic Idealize.ShloMosaic.TcCoe Idealize.ShloMosaic.ValueIdx Idealize.SL.Sem
open Cert.KernelIdeal Cert.KernelIdeal.Gen Cert.Chamfer Cert.Chamfer.Body Cert.Chamfer.Pieces

variable (m : (ℓ : Loc nD τ sig) → Buf (Elt Ideal) ℓ) (c : Dev nD)

/-- The first cloud and the second cloud, as the program finds them. -/
abbrev X : Vec Ideal S4x3x8192 .f32 := m ((c.tc : Thread nD τ).loc main_arg0)
abbrev Y : Vec Ideal S4x3x8192 .f32 := m ((c.tc : Thread nD τ).loc main_arg1)

theorem tlt (t : Fin cfg0.N) : t.val < 32 := lt_of_lt_of_eq t.isLt (show cfg0.N = 32 from N_0)

/-- The block indices of the four windows at point t, decided over the grid: the first cloud's block and the first
    output's block move with t along their last axis, the second cloud never moves, the second output's block is the
    run's. -/
theorem idx_facts : ∀ t : Fin cfg0.N, win0_0.index t (0 : Fin 3) = 0 ∧ win0_0.index t (1 : Fin 3) = 0
    ∧ win0_0.index t (2 : Fin 3) = t.val
    ∧ win0_1.index t (0 : Fin 3) = 0 ∧ win0_1.index t (1 : Fin 3) = 0 ∧ win0_1.index t (2 : Fin 3) = 0
    ∧ win0_2.index t (0 : Fin 2) = 0 ∧ win0_2.index t (1 : Fin 2) = t.val
    ∧ win0_3.index t (0 : Fin 3) = t.val / 16 ∧ win0_3.index t (1 : Fin 3) = 0 ∧ win0_3.index t (2 : Fin 3) = 0 :=
  (by decide +kernel : ∀ t : Fin grid0.N, _)

/-- Point r of the block of the first cloud at grid point t is point 256·t + r of the cloud. -/
theorem iblk0_col (t : Fin cfg0.N) (b : Fin 4) (r : Fin 256) :
    col (N := 256) (iblk m c 0 t) b r = col (X m c) b ⟨256 * t.val + r.val, by have := tlt t; omega⟩ := by
  obtain ⟨e0, e1, e2, -⟩ := idx_facts t
  funext cc
  show iblk m c 0 t (ix3 b cc r) = m ((c.tc : Thread nD τ).loc main_arg0) _
  unfold iblk
  rw [View.read_apply]
  show V m c main_arg0 _ = m (c.tc.loc main_arg0) _
  unfold V
  congr 1
  funext a
  apply Fin.ext
  match a with
  | ⟨0, _⟩ => show win0_0.index t (0 : Fin 3) * 4 + 1 * b.val = b.val; rw [e0]; omega
  | ⟨1, _⟩ => show win0_0.index t (1 : Fin 3) * 3 + 1 * cc.val = cc.val; rw [e1]; omega
  | ⟨2, _⟩ => show win0_0.index t (2 : Fin 3) * 256 + 1 * r.val = 256 * t.val + r.val; rw [e2]; omega

/-- The block of the second cloud is the whole cloud. -/
theorem iblk1_col (t : Fin cfg0.N) (b : Fin 4) (k : Fin 8192) :
    col (N := 8192) (iblk m c 1 t) b k = col (Y m c) b k := by
  obtain ⟨-, -, -, e0, e1, e2, -⟩ := idx_facts t
  funext cc
  show iblk m c 1 t (ix3 b cc k) = m ((c.tc : Thread nD τ).loc main_arg1) _
  unfold iblk
  rw [View.read_apply]
  show V m c main_arg1 _ = m (c.tc.loc main_arg1) _
  unfold V
  congr 1
  funext a
  apply Fin.ext
  match a with
  | ⟨0, _⟩ => show win0_1.index t (0 : Fin 3) * 4 + 1 * b.val = b.val; rw [e0]; omega
  | ⟨1, _⟩ => show win0_1.index t (1 : Fin 3) * 3 + 1 * cc.val = cc.val; rw [e1]; omega
  | ⟨2, _⟩ => show win0_1.index t (2 : Fin 3) * 8192 + 1 * k.val = k.val; rw [e2]; omega

/-! ## The first output's block after point t -/

theorem first_le (t : Fin cfg0.N) (b : Fin 4) (r : Fin 256) (z : EReal) :
    z ≤ (outsAt0 m c t.val t.isLt).1 (ix2 b r)
      ↔ ∀ k : Fin 8192, z ≤ dist (col (X m c) b ⟨256 * t.val + r.val, by have := tlt t; omega⟩) (col (Y m c) b k) := by
  by_cases h0 : t.val % 16 = 0
  · rw [outsAt0_A m c t h0]
    dsimp only
    refine (outA2_le c _ _ _ _ _ _ _ _ _ _ (iblk m c 0 t) (iblk m c 1 t) b r z).trans ?_
    refine forall_congr' fun k => ?_
    rw [iblk0_col m c t b r, iblk1_col m c t b k]
  · rw [outsAt0_B m c t h0]
    dsimp only
    refine (outB2_le c _ _ _ _ _ _ _ _ _ _ (iblk m c 0 t) (iblk m c 1 t) _ b r z).trans ?_
    refine forall_congr' fun k => ?_
    rw [iblk0_col m c t b r, iblk1_col m c t b k]

/-! ## The second output's block after point t -/

/-- The fill is +∞ everywhere. -/
theorem pay3_top (y : S1x4x8192.Idx) : k0_pay3 (F := Ideal) y = (⊤ : EReal) := ofBits_inf

/-- One point's step: a bound on the new block is a bound on the old block and on the distances to the 256 points of
    the point's block of the first cloud. -/
theorem acc_le (t : Fin cfg0.N) (xo : Vec Ideal S1x4x8192 .f32) (b : Fin 4) (k : Fin 8192) (z : EReal) :
    z ≤ acc (iblk m c 0 t) (iblk m c 1 t) xo (ix3 (0 : Fin 1) b k)
      ↔ (z ≤ xo (ix3 (0 : Fin 1) b k)
        ∧ ∀ n : Fin 8192, 256 * t.val ≤ n.val → n.val < 256 * t.val + 256 → z ≤ dist (col (X m c) b n) (col (Y m c) b k)) := by
  rw [acc_apply, le_min_iff, le_minOver]
  refine and_congr Iff.rfl ?_
  rw [← forall_offset (fun n => z ≤ dist (col (X m c) b n) (col (Y m c) b k)) 256 (256 * t.val) (by have := tlt t; omega)]
  refine forall_congr' fun r => ?_
  rw [iblk0_col m c t b r, iblk1_col m c t b k]

/-- After point n the second output's block holds, at (0, b, k), the least distance from point k of the second cloud to
    the points of the first cloud the run has seen so far. -/
theorem second_le : ∀ (n : Nat) (hn : n < cfg0.N) (b : Fin 4) (k : Fin 8192) (z : EReal),
    z ≤ (outsAt0 m c n hn).2 (ix3 (0 : Fin 1) b k)
      ↔ ∀ p : Fin 8192, 4096 * (n / 16) ≤ p.val → p.val < 256 * (n + 1) → z ≤ dist (col (X m c) b p) (col (Y m c) b k)
  | 0, hn, b, k, z => by
    rw [outsAt0_A m c ⟨0, hn⟩ rfl]
    dsimp only
    rw [outA3_eq]
    refine (acc_le m c ⟨0, hn⟩ _ b k z).trans ?_
    rw [pay3_top]
    refine (and_iff_right le_top).trans ?_
    exact Iff.rfl
  | n + 1, hn, b, k, z => by
    have hN : n + 1 < 32 := tlt ⟨n + 1, hn⟩
    by_cases h0 : (n + 1) % 16 = 0
    · rw [outsAt0_A m c ⟨n + 1, hn⟩ h0]
      dsimp only
      rw [outA3_eq]
      refine (acc_le m c ⟨n + 1, hn⟩ _ b k z).trans ?_
      rw [pay3_top]
      refine (and_iff_right le_top).trans ?_
      refine forall_congr' fun p => ?_
      show (256 * (n + 1) ≤ p.val → p.val < 256 * (n + 1) + 256 → _) ↔ (4096 * ((n + 1) / 16) ≤ p.val → p.val < 256 * (n + 1 + 1) → _)
      rw [show 4096 * ((n + 1) / 16) = 256 * (n + 1) from by omega, show 256 * (n + 1 + 1) = 256 * (n + 1) + 256 from by omega]
    · rw [outsAt0_B m c ⟨n + 1, hn⟩ h0]
      dsimp only
      rw [outB3_eq]
      refine (acc_le m c ⟨n + 1, hn⟩ _ b k z).trans ?_
      show (z ≤ (outsAt0 m c n _).2 (ix3 (0 : Fin 1) b k) ∧ _) ↔ _
      rw [second_le n (Nat.lt_of_succ_lt hn) b k z]
      show ((∀ p : Fin 8192, 4096 * (n / 16) ≤ p.val → p.val < 256 * (n + 1) → _) ∧
        (∀ p : Fin 8192, 256 * (n + 1) ≤ p.val → p.val < 256 * (n + 1) + 256 → _)) ↔ _
      rw [forall_range_split (fun p => z ≤ dist (col (X m c) b p) (col (Y m c) b k)) _ _ _ (by omega) (by omega)]
      rw [show 4096 * ((n + 1) / 16) = 4096 * (n / 16) from by omega, show 256 * (n + 1 + 1) = 256 * (n + 1) + 256 from by omega]

end Cert.Chamfer.Grid

end
-- ==== Proof.KernelValue.lean ====
/-
  The kernel's program, read end to end.

  After the 32 grid points the first result array [4, 8192] holds, at (b, n), the least distance from point n of the
  first cloud to the second cloud: every point writes its own block of 256 columns back, and the blocks tile the array.
  The second result array [2, 4, 8192] holds, at (p, b, k), the least distance from point k of the second cloud to the
  points 4096·p … 4096·p + 4095 of the first cloud: run p writes its block back once, after its last point.  The lines
  after the kernel take the minimum of the two halves — the least distance to the whole first cloud — and then the two
  means.
-/
import proofs.«157938_j11948599017824_2_alg».proof.Proof.Invariant
import Idealize.ShloMosaic.Lib.StableHlo.Run

set_option maxRecDepth 16384

noncomputable section

namespace Cert.Chamfer.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Chamfer Cert.Chamfer.Body Cert.Chamfer.Pieces Cert.Chamfer.Grid

variable (m : (ℓ : Loc nD τ sig) → Buf (Elt Ideal) ℓ) (ρ : Dev nD → PrngReg) (c : Dev nD)

/-! ## The first result array -/

/-- What the first result array ends holding. -/
def first : Vec Ideal S4x8192 .f32 := nearX (X m c) (Y m c)

theorem first_apply (b : Fin 4) (n : Fin 8192) :
    first m c (ix2 b n) = minOver fun k : Fin 8192 => dist (col (X m c) b n) (col (Y m c) b k) := rfl

/-- Point t writes back block t of it. -/
theorem flushed2_eq (t : Fin cfg0.N) :
    (dats m 0 c).flushed 2 t = ((cfg0.win 2).blk t).view.read (Elt Ideal) (first m c) := by
  show (cfg0.win 2).cut (grid0.coords t) ((dats m 0 c).after 2 t) = _
  rw [after0_2]
  obtain ⟨-, -, -, -, -, -, e0, e1, -⟩ := idx_facts t
  have ht := tlt t
  funext j
  obtain ⟨b, r, rfl⟩ : ∃ (b : Fin 4) (r : Fin 256), j = ix2 b r := ⟨j 0, j 1, eq_ix2 j⟩
  show (outsAt0 m c t.val t.isLt).1 (ix2 b r) = first m c (((cfg0.win 2).blk t).view.emb (ix2 b r))
  have hemb : ((cfg0.win 2).blk t).view.emb (ix2 b r) = (ix2 b ⟨256 * t.val + r.val, by omega⟩ : S4x8192.Idx) := by
    funext a; apply Fin.ext
    match a with
    | ⟨0, _⟩ => show win0_2.index t (0 : Fin 2) * 4 + 1 * b.val = b.val; rw [e0]; omega
    | ⟨1, _⟩ => show win0_2.index t (1 : Fin 2) * 256 + 1 * r.val = 256 * t.val + r.val; rw [e1]; omega
  rw [hemb, first_apply]
  refine eq_of_le_iff fun z => ?_
  rw [first_le, le_minOver]

/-- An index of the array is in point t's block iff each coordinate is in the block's range. -/
theorem mem_blk2 (t : Fin cfg0.N) (i : S4x8192.Idx) :
    i ∈ ((cfg0.win 2).blk t).view.set
      ↔ ∀ a : Fin 2, win0_2.index t a * S4x256.size a ≤ (i a).val ∧ (i a).val < win0_2.index t a * S4x256.size a + S4x256.size a := by
  show i ∈ ((View.whole main_v0_0).slice (win0_2.rect t)).set ↔ _
  rw [View.set_slice_whole, Rect.mem_set_unit]
  exact Iff.rfl

/-- The blocks tile the array, so it ends holding `first`. -/
theorem final2 : (dats m 0 c).arrAt 2 cfg0.N = first m c :=
  (dats m 0 c).arrAt_eq_of_cover 2 (first m c) (fun t _ => flushed2_eq m c t) fun i => by
    have h0 : (i 0).val < 4 := (i 0).isLt
    have h1 : (i 1).val < 8192 := (i 1).isLt
    have hN : cfg0.N = 32 := N_0
    have hlt : (i 1).val / 256 < cfg0.N := by rw [hN]; omega
    obtain ⟨-, -, -, -, -, -, e0, e1, -⟩ := idx_facts ⟨(i 1).val / 256, hlt⟩
    refine ⟨⟨(i 1).val / 256, hlt⟩, flush0_2 _, ?_⟩
    rw [mem_blk2]
    intro a
    match a with
    | ⟨0, _⟩ =>
      show win0_2.index ⟨(i 1).val / 256, hlt⟩ (0 : Fin 2) * 4 ≤ (i 0).val ∧ (i 0).val < win0_2.index ⟨(i 1).val / 256, hlt⟩ (0 : Fin 2) * 4 + 4
      rw [e0]; omega
    | ⟨1, _⟩ =>
      show win0_2.index ⟨(i 1).val / 256, hlt⟩ (1 : Fin 2) * 256 ≤ (i 1).val ∧ (i 1).val < win0_2.index ⟨(i 1).val / 256, hlt⟩ (1 : Fin 2) * 256 + 256
      rw [e1]; show (i 1).val / 256 * 256 ≤ (i 1).val ∧ (i 1).val < (i 1).val / 256 * 256 + 256; omega

/-! ## The second result array -/

/-- What the second result array ends holding: at (p, b, k) the least distance from point k of the second cloud to
    the 4096 points of half p of the first cloud. -/
def halves : Vec Ideal S2x4x8192 .f32 := fun i =>
  minOver fun j : Fin 4096 =>
    dist (col (X m c) ⟨(i 1).val, (i 1).isLt⟩ ⟨4096 * (i 0).val + j.val, by have h : (i 0).val < 2 := (i 0).isLt; omega⟩)
      (col (Y m c) ⟨(i 1).val, (i 1).isLt⟩ ⟨(i 2).val, (i 2).isLt⟩)

theorem halves_apply (p : Fin 2) (b : Fin 4) (k : Fin 8192) :
    halves m c (ix3 p b k)
      = minOver fun j : Fin 4096 => dist (col (X m c) b ⟨4096 * p.val + j.val, by omega⟩) (col (Y m c) b k) := rfl

/-- A bound on `halves` at (p, b, k) is a bound on the distances to the points of half p. -/
theorem le_halves (p : Fin 2) (b : Fin 4) (k : Fin 8192) (z : EReal) :
    z ≤ halves m c (ix3 p b k)
      ↔ ∀ n : Fin 8192, 4096 * p.val ≤ n.val → n.val < 4096 * p.val + 4096 → z ≤ dist (col (X m c) b n) (col (Y m c) b k) := by
  rw [halves_apply, le_minOver]
  exact forall_offset (fun n => z ≤ dist (col (X m c) b n) (col (Y m c) b k)) 4096 (4096 * p.val) (by omega)

/-- The last point of a run writes back the run's block of it. -/
theorem flushed3_eq (t : Fin cfg0.N) (hf : (cfg0.win 3).flush t = true) :
    (dats m 0 c).flushed 3 t = ((cfg0.win 3).blk t).view.read (Elt Ideal) (halves m c) := by
  have h15 : t.val % 16 = 15 := (flush0_3 t).mp hf
  show (cfg0.win 3).cut (grid0.coords t) ((dats m 0 c).after 3 t) = _
  rw [after0_3]
  obtain ⟨-, -, -, -, -, -, -, -, e0, e1, e2⟩ := idx_facts t
  have ht := tlt t
  funext j
  obtain ⟨u, b, k, rfl⟩ : ∃ (u : Fin 1) (b : Fin 4) (k : Fin 8192), j = ix3 u b k := ⟨j 0, j 1, j 2, eq_ix3 j⟩
  obtain rfl : u = 0 := Subsingleton.elim _ _
  show (outsAt0 m c t.val t.isLt).2 (ix3 (0 : Fin 1) b k) = halves m c (((cfg0.win 3).blk t).view.emb (ix3 (0 : Fin 1) b k))
  have hemb : ((cfg0.win 3).blk t).view.emb (ix3 (0 : Fin 1) b k) = (ix3 (⟨t.val / 16, by omega⟩ : Fin 2) b k : S2x4x8192.Idx) := by
    funext a; apply Fin.ext
    match a with
    | ⟨0, _⟩ => show win0_3.index t (0 : Fin 3) * 1 + 1 * 0 = t.val / 16; rw [e0]; omega
    | ⟨1, _⟩ => show win0_3.index t (1 : Fin 3) * 4 + 1 * b.val = b.val; rw [e1]; omega
    | ⟨2, _⟩ => show win0_3.index t (2 : Fin 3) * 8192 + 1 * k.val = k.val; rw [e2]; omega
  rw [hemb]
  refine eq_of_le_iff fun z => ?_
  rw [second_le m c t.val t.isLt b k z, le_halves]
  refine forall_congr' fun n => ?_
  show (_ → n.val < 256 * (t.val + 1) → _) ↔ (_ → n.val < 4096 * (t.val / 16) + 4096 → _)
  rw [show 256 * (t.val + 1) = 4096 * (t.val / 16) + 4096 from by omega]

theorem mem_blk3 (t : Fin cfg0.N) (i : S2x4x8192.Idx) :
    i ∈ ((cfg0.win 3).blk t).view.set
      ↔ ∀ a : Fin 3, win0_3.index t a * S1x4x8192.size a ≤ (i a).val ∧ (i a).val < win0_3.index t a * S1x4x8192.size a + S1x4x8192.size a := by
  show i ∈ ((View.whole main_v0_1).slice (win0_3.rect t)).set ↔ _
  rw [View.set_slice_whole, Rect.mem_set_unit]
  exact Iff.rfl

/-- The two runs' blocks are the two halves of the array, so it ends holding `halves`. -/
theorem final3 : (dats m 0 c).arrAt 3 cfg0.N = halves m c :=
  (dats m 0 c).arrAt_eq_of_cover 3 (halves m c) (fun t hf => flushed3_eq m c t hf) fun i => by
    have h0 : (i 0).val < 2 := (i 0).isLt
    have h1 : (i 1).val < 4 := (i 1).isLt
    have h2 : (i 2).val < 8192 := (i 2).isLt
    have hN : cfg0.N = 32 := N_0
    have hlt : 16 * (i 0).val + 15 < cfg0.N := by rw [hN]; omega
    obtain ⟨-, -, -, -, -, -, -, -, e0, e1, e2⟩ := idx_facts ⟨16 * (i 0).val + 15, hlt⟩
    refine ⟨⟨16 * (i 0).val + 15, hlt⟩, (flush0_3 _).mpr (by show (16 * (i 0).val + 15) % 16 = 15; omega), ?_⟩
    rw [mem_blk3]
    intro a
    match a with
    | ⟨0, _⟩ =>
      show win0_3.index ⟨16 * (i 0).val + 15, hlt⟩ (0 : Fin 3) * 1 ≤ (i 0).val ∧ (i 0).val < win0_3.index ⟨16 * (i 0).val + 15, hlt⟩ (0 : Fin 3) * 1 + 1
      rw [e0]; show (16 * (i 0).val + 15) / 16 * 1 ≤ (i 0).val ∧ (i 0).val < (16 * (i 0).val + 15) / 16 * 1 + 1; omega
    | ⟨1, _⟩ =>
      show win0_3.index ⟨16 * (i 0).val + 15, hlt⟩ (1 : Fin 3) * 4 ≤ (i 1).val ∧ (i 1).val < win0_3.index ⟨16 * (i 0).val + 15, hlt⟩ (1 : Fin 3) * 4 + 4
      rw [e1]; omega
    | ⟨2, _⟩ =>
      show win0_3.index ⟨16 * (i 0).val + 15, hlt⟩ (2 : Fin 3) * 8192 ≤ (i 2).val ∧ (i 2).val < win0_3.index ⟨16 * (i 0).val + 15, hlt⟩ (2 : Fin 3) * 8192 + 8192
      rw [e2]; omega

/-! ## The lines after the kernel -/

/-- Row (b, k) of half p of a [2, 4, 8192] array, cut out and laid flat. -/
theorem half_row {α : Type} (H : S2x4x8192.Idx → α) (p : Fin 2) (off : Fin 3 → Nat) (hoff : off = ![p.val, 0, 0])
    (h : S2x4x8192.Slices off S1x4x8192) (hc : S1x4x8192.ShapeCasts S4x8192) (b : Fin 4) (k : Fin 8192) :
    shapeCast S4x8192 (extractStridedSlice S1x4x8192 off H h) hc (ix2 b k) = H (ix3 p b k) := by
  subst hoff
  refine (shapeCast_apply _ hc (ix2 b k) (ix3 (0 : Fin 1) b k) (by
    rw [Shape.rowMajor_val_two, Shape.rowMajor_val_three]
    show (0 * 4 + b.val) * 8192 + k.val = b.val * 8192 + k.val
    omega)).trans ?_
  exact extractStridedSlice_apply _ H h (ix3 (0 : Fin 1) b k) (ix3 p b k) (fun a => by
    match a with
    | ⟨0, _⟩ => show p.val = p.val + 0; omega
    | ⟨1, _⟩ => show b.val = 0 + b.val; omega
    | ⟨2, _⟩ => show k.val = 0 + k.val; omega)

/-- The minimum of the two halves is the least distance to the whole first cloud. -/
theorem min_halves (h0 : S2x4x8192.Slices ![0, 0, 0] S1x4x8192) (h1 : S2x4x8192.Slices ![1, 0, 0] S1x4x8192)
    (hc : S1x4x8192.ShapeCasts S4x8192) :
    minimumf (F := Ideal) (φ := .f32) (shapeCast S4x8192 (extractStridedSlice S1x4x8192 ![0, 0, 0] (halves m c) h0) hc)
        (shapeCast S4x8192 (extractStridedSlice S1x4x8192 ![1, 0, 0] (halves m c) h1) hc)
      = nearY (X m c) (Y m c) := by
  funext j
  obtain ⟨b, k, rfl⟩ : ∃ (b : Fin 4) (k : Fin 8192), j = ix2 b k := ⟨j 0, j 1, eq_ix2 j⟩
  rw [minimumf_apply, half_row (halves m c) 0 ![0, 0, 0] rfl h0 hc b k, half_row (halves m c) 1 ![1, 0, 0] rfl h1 hc b k]
  refine eq_of_le_iff fun z => ?_
  rw [le_min_iff, le_halves, le_halves]
  show _ ↔ z ≤ minOver _
  rw [le_minOver]
  have hs := forall_range_split (fun n => z ≤ dist (col (X m c) b n) (col (Y m c) b k)) 0 4096 8192 (by omega) (by omega)
  have ha := forall_range_all (fun n => z ≤ dist (col (X m c) b n) (col (Y m c) b k))
  exact hs.trans ha

/-! ## The program's result -/

/-- After the kernel the program's lines leave, as its result, the loss of the two arrays of least distances. -/
theorem tail_eq : Pipeline.afterTail₀ cfgs (dats m) 0 (V0 m) [hostOps1] c main_v11
    = total (nearX (X m c) (Y m c)) (nearY (X m c) (Y m c)) reducesTo_S4x8192_S_d0_1 h_S_ := by
  have e2 : Pipeline.withArrays (cfgs 0).spec c (V0 m c) (fun w => (dats m 0 c).arrAt w (cfgs 0).N) (Proc.devRef .tc main_v0_0)
      = first m c := (Pipeline.withArrays_arr spec0 launch0.win.arr_inj c _ _ 2).trans (final2 m c)
  have e3 : Pipeline.withArrays (cfgs 0).spec c (V0 m c) (fun w => (dats m 0 c).arrAt w (cfgs 0).N) (Proc.devRef .tc main_v0_1)
      = halves m c := (Pipeline.withArrays_arr spec0 launch0.win.arr_inj c _ _ 3).trans (final3 m c)
  unfold Pipeline.afterTail₀
  show StableHlo.after hostOps1 _ (Proc.devRef .tc main_v11) = _
  after_results
  rw [e2, e3]
  show total (first m c)
      (minimumf (F := Ideal) (φ := .f32)
        (shapeCast S4x8192 (extractStridedSlice S1x4x8192 ![0, 0, 0] (halves m c) slices_S2x4x8192_S1x4x8192_0_0_0) shapeCasts_S1x4x8192_S4x8192)
        (shapeCast S4x8192 (extractStridedSlice S1x4x8192 ![1, 0, 0] (halves m c) slices_S2x4x8192_S1x4x8192_1_0_0) shapeCasts_S1x4x8192_S4x8192))
      reducesTo_S4x8192_S_d0_1 h_S_ = _
  rw [min_halves]
  rfl

/-- THE RUN, READ: every weakly fair execution of the program terminates with its result at the loss of the two
    clouds and the two clouds unchanged. -/
theorem run : θ_run defs (onTc (τ := τ) (main (F := Ideal))) ⟨m, fun _ => 0, ρ⟩ fun r => ∀ c : Dev nD,
      r.2.mem ((c.tc : Thread nD τ).loc main_v11)
        = total (nearX (X m c) (Y m c)) (nearY (X m c) (Y m c)) reducesTo_S4x8192_S_d0_1 h_S_
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v11 (Pipeline.mem_restRefs_of main_v11 rfl (fun w => by fin_cases w <;> decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.Chamfer.Kernel

end
-- ==== Proof.RefValue.lean ====
/-
  The reference computes the same loss: its matrix of clamped squared distances, entry (b, n, k), is `dist` of point n
  of the first cloud and point k of the second (the sums of squares and the product over the three coordinates are
  taken of the transposed clouds, which read the clouds at (b, c, n)); its two minimum-reductions are the least
  distances along the rows and along the columns; and it ends with the mean and the scaled mean that `total` names.
-/
import proofs.«157938_j11948599017824_2_alg».proof.Proof.Gen.ReferenceIdeal.Read
import proofs.«157938_j11948599017824_2_alg».proof.Proof.Spec
import Idealize.ShloMosaic.Lib.ValueIdx
import Idealize.ShloMosaic.PureOps.Ideal.Laws

noncomputable section

namespace Cert.Chamfer.Ref

open Idealize.ShloMosaic Idealize.ShloMosaic.ValueIdx Idealize.SL.Sem
open Cert.ReferenceIdeal Cert.ReferenceIdeal.Gen Cert.ReferenceIdeal.Read Cert.Chamfer

/-- Entry (b, n, k) of the reference's distance matrix. -/
theorem v16_apply (x y : (⟨S4x3x8192, .f32⟩ : BufTy).Contents (Elt Ideal)) (b : Fin 4) (n k : Fin 8192) :
    val_main_v16 (F := Ideal) x y (ix3 b n k) = dist (col x b n) (col y b k) := by
  have ex : ∀ c : Fin 3, idx_main_v0 (idx_main_v3 (idx_main_v7 (idx_main_v9 (ix3 b n k))) c) = ix3 b c n := fun c =>
    funext fun a => Fin.ext (by match a with | ⟨0, _⟩ => rfl | ⟨1, _⟩ => rfl | ⟨2, _⟩ => rfl)
  have ey : ∀ c : Fin 3, idx_main_v1 (idx_main_v5 (idx_main_v8 (idx_main_v10 (ix3 b n k))) c) = ix3 b c k := fun c =>
    funext fun a => Fin.ext (by match a with | ⟨0, _⟩ => rfl | ⟨1, _⟩ => rfl | ⟨2, _⟩ => rfl)
  have el : ∀ c : Fin 3, idx_main_v0 (lidx_main_v6 (ix3 b n k) c) = ix3 b c n := fun c =>
    funext fun a => Fin.ext (by match a with | ⟨0, _⟩ => rfl | ⟨1, _⟩ => rfl | ⟨2, _⟩ => rfl)
  have er : ∀ c : Fin 3, idx_main_v1 (ridx_main_v6 (ix3 b n k) c) = ix3 b c k := fun c =>
    funext fun a => Fin.ext (by match a with | ⟨0, _⟩ => rfl | ⟨1, _⟩ => rfl | ⟨2, _⟩ => rfl)
  rw [val_main_v16_apply, val_main_v14_apply, val_main_v11_apply, val_main_v9_apply, val_main_v7_apply, val_main_v3_apply,
    val_main_v10_apply, val_main_v8_apply, val_main_v5_apply, val_main_v13_apply, val_main_v12_apply, val_main_v6_apply,
    val_main_v15_apply]
  simp only [val_main_v2_apply, val_main_v4_apply, val_main_v0_apply, val_main_v1_apply, val_main_cst_apply,
    val_main_cst_0_apply, val_main_cst_1_apply, val_main_cst_2_apply, ex, ey, el, er]
  unfold dist col
  show max (((Ideal.ofBits .f32 0x00000000#32 + ∑ c : Fin 3, x (ix3 b c n) * x (ix3 b c n))
      + (Ideal.ofBits .f32 0x00000000#32 + ∑ c : Fin 3, y (ix3 b c k) * y (ix3 b c k)))
      - Ideal.ofBits .f32 0x40000000#32 * ∑ c : Fin 3, x (ix3 b c n) * y (ix3 b c k)) (Ideal.ofBits .f32 0x00000000#32) = _
  rw [Ideal.ofBits_zero_f32, zero_add, zero_add]

/-- The reference's minimum along the rows of its distance matrix: the least distance from each point of the first
    cloud to the second cloud. -/
theorem v17_eq (x y : (⟨S4x3x8192, .f32⟩ : BufTy).Contents (Elt Ideal)) : val_main_v17 (F := Ideal) x y = nearX x y := by
  funext j
  obtain ⟨b, n, rfl⟩ : ∃ (b : Fin 4) (n : Fin 8192), j = ix2 b n := ⟨j 0, j 1, eq_ix2 j⟩
  have hR : S4x8192x8192.Reduces [2] S4x8192 :=
    ⟨reducesTo_S4x8192x8192_S4x8192_d2.1, by decide, reducesTo_S4x8192x8192_S4x8192_d2.2⟩
  unfold val_main_v17
  generalize hd : val_main_v16 (F := Ideal) x y = d
  have h := Host.reduce_eq_fold_single (FloatOps.minimumf (F := Ideal) (φ := .f32)) d (val_main_cst_3 (F := Ideal))
    reducesTo_S4x8192x8192_S4x8192_d2 hR h_S_ (ix2 b n)
  refine h.trans ?_
  unfold nearX minOver
  refine congrArg (Finset.fold min (Ideal.ofBits .f32 0x7F800000#32) · Finset.univ) (funext fun k => ?_)
  have e : hR.lift (ix2 b n) k = ix3 b n k :=
    funext fun a => Fin.ext (by match a with | ⟨0, _⟩ => rfl | ⟨1, _⟩ => rfl | ⟨2, _⟩ => rfl)
  refine (congrArg d e).trans ?_
  rw [← hd]
  exact v16_apply x y b n k

/-- The reference's minimum along the columns: the least distance from each point of the second cloud to the first. -/
theorem v18_eq (x y : (⟨S4x3x8192, .f32⟩ : BufTy).Contents (Elt Ideal)) : val_main_v18 (F := Ideal) x y = nearY x y := by
  funext j
  obtain ⟨b, k, rfl⟩ : ∃ (b : Fin 4) (k : Fin 8192), j = ix2 b k := ⟨j 0, j 1, eq_ix2 j⟩
  have hR : S4x8192x8192.Reduces [1] S4x8192 :=
    ⟨reducesTo_S4x8192x8192_S4x8192_d1.1, by decide, reducesTo_S4x8192x8192_S4x8192_d1.2⟩
  unfold val_main_v18
  generalize hd : val_main_v16 (F := Ideal) x y = d
  have h := Host.reduce_eq_fold_single (FloatOps.minimumf (F := Ideal) (φ := .f32)) d (val_main_cst_4 (F := Ideal))
    reducesTo_S4x8192x8192_S4x8192_d1 hR h_S_ (ix2 b k)
  refine h.trans ?_
  unfold nearY minOver
  refine congrArg (Finset.fold min (Ideal.ofBits .f32 0x7F800000#32) · Finset.univ) (funext fun n => ?_)
  have e : hR.lift (ix2 b k) n = ix3 b n k :=
    funext fun a => Fin.ext (by match a with | ⟨0, _⟩ => rfl | ⟨1, _⟩ => rfl | ⟨2, _⟩ => rfl)
  refine (congrArg d e).trans ?_
  rw [← hd]
  exact v16_apply x y b n k

/-- The reference's result is the loss of the two arrays of least distances. -/
theorem v24_eq (x y : (⟨S4x3x8192, .f32⟩ : BufTy).Contents (Elt Ideal)) :
    val_main_v24 (F := Ideal) x y = total (nearX x y) (nearY x y) reducesTo_S4x8192_S_d0_1 h_S_ := by
  rw [← v17_eq, ← v18_eq]
  rfl

end Cert.Chamfer.Ref

end
-- ==== Proof.lean ====
/-
  The Chamfer loss of two point clouds, a Pallas kernel against its jnp reference, over the extended reals.

  Both programs take two clouds x, y of shape [4, 3, 8192] (batch, coordinate, point) and return one number: the mean
  over the points of x of the least clamped squared distance to y, plus ten times the mean over the points of y of the
  least clamped squared distance to x, where the clamped squared distance of two points p, q is
  max ((|p|² + |q|²) − 2·(p·q)) 0.

  The reference forms the whole [4, 8192, 8192] matrix of distances and reduces it by minimum along its rows and along
  its columns.  The kernel never forms it: a grid of 2 × 16 points walks the points of x in blocks of 256; at each grid
  point it forms the [4, 256, 2048] matrix of the block against each of four chunks of 2048 points of y, takes the row
  minima (folded through the four chunks: the block's least distances to all of y, written to the first output) and the
  column minima (folded into the second output's block, which a run of 16 grid points shares and which is reset to +∞
  when the run begins: after the run, the least distances from y to one half of x).  The lines after the kernel take the
  minimum of the two halves and the two means.

  Entry by entry the two programs compute the SAME extended real for every distance (the same sums over the three
  coordinates, the same subtraction and clamp), and a minimum over a finite set does not depend on how the set is cut
  into chunks, blocks and halves: it is characterised by its lower bounds (z ≤ min ↔ z ≤ every element).  So the two
  arrays of least distances agree, and the common last lines (sum, divide by 32768, scale by ten, add) are applied to
  equal arrays.  No finiteness of the inputs is needed.

  Spec.lean: the distance, the minima, the regrouping lemmas, the shared last lines.  Payload.lean: the kernel body's
  arithmetic at an index.  Pieces.lean: what one grid point leaves in its two output blocks.  Invariant.lean: what the
  blocks hold after each grid point, by induction along a run.  KernelValue.lean: the two result arrays, the lines
  after the kernel, the run.  RefValue.lean: the reference's stages at an index.  Here: the five claims.
-/
import proofs.«157938_j11948599017824_2_alg».proof.Defs
import proofs.«157938_j11948599017824_2_alg».proof.Proof.Gen.Kernel
import proofs.«157938_j11948599017824_2_alg».proof.Proof.Gen.Kernel.Frame
import proofs.«157938_j11948599017824_2_alg».proof.Proof.Gen.KernelIdeal
import proofs.«157938_j11948599017824_2_alg».proof.Proof.Gen.KernelIdeal.Frame
import proofs.«157938_j11948599017824_2_alg».proof.Proof.Gen.ReferenceIdeal
import proofs.«157938_j11948599017824_2_alg».proof.Proof.Gen.ReferenceIdeal.Run
import proofs.«157938_j11948599017824_2_alg».proof.Proof.Gen.ReferenceIdeal.Read
import proofs.«157938_j11948599017824_2_alg».proof.Proof.Gen.Pre_finite_inputs
import proofs.«157938_j11948599017824_2_alg».proof.Proof.KernelValue
import proofs.«157938_j11948599017824_2_alg».proof.Proof.RefValue
import Idealize.ShloMosaic.Adequacy
import Idealize.ShloMosaic.Init

noncomputable section

namespace Cert.Proof

open Idealize.ShloMosaic Idealize.ShloMosaic.TcCoe Idealize.SL.Sem

/-- The kernel's program runs and leaves the two clouds as they were (the generated frame run). -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Over the extended reals both programs end at the loss of the two clouds: the kernel's program by its run read
    through the grid, the reference by its stages read at an index; the clouds agree, so the results do. -/
theorem algebraic : Cert.algebraic_KernelIdeal_ReferenceIdeal := by
  intro m ρ m' ρ' _ hagree
  refine ⟨fun c => Cert.Chamfer.total
      (Cert.Chamfer.nearX (Cert.Chamfer.Grid.X m c) (Cert.Chamfer.Grid.Y m c))
      (Cert.Chamfer.nearY (Cert.Chamfer.Grid.X m c) (Cert.Chamfer.Grid.Y m c))
      Cert.KernelIdeal.Gen.reducesTo_S4x8192_S_d0_1 Cert.KernelIdeal.Gen.h_S_,
    Cert.Chamfer.Kernel.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v24_eq, Cert.Chamfer.Ref.v24_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
